-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg9 : FVec F S128 .f32) (main_arg10 : FVec F S128x128 .f32) (main_arg11 : FVec F S128x3 .f32) (main_arg12 : FVec F S3 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x3 .f32 := Host.absf main_arg11
  let main_cst_16 : FVec F S_ .f32 := constant S_ .f32 0x7F800000#32
  let main_v45 : FVec F S128x3 .f32 := broadcastInDim S128x3 ![] bcast_S_S128x3 main_cst_16
  let main_v46 : IVec S128x3 1 := cmpf .olt main_v44 main_v45
  let main_c_17 : IVec S_ 1 := constantI S_ 1 1#1
  let main_v47 : IVec S_ 1 := (fun x v => Host.reduce IntOp.andi x v reducesTo_S128x3_S_d0_1 h_S_) main_v46 main_c_17
  let main_v48 : IVec S_ 1 := andi main_v43 main_v47
  let main_v49 : FVec F S3 .f32 := Host.absf main_arg12
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x128 .f32) (main_arg11 : FVec F S128x3 .f32) (main_arg12 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x1600000 32) (main_arg2 : IVec S1600000 32) (main_arg3 : FVec F S128x128 .f32) (main_arg4 : FVec F S128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x3 .f32) (main_arg12 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1x128 : Shape := ⟨2, ![1, 128]⟩
abbrev S5000x128 : Shape := ⟨2, ![5000, 128]⟩
abbrev S1600000x128 : Shape := ⟨2, ![1600000, 128]⟩
abbrev S1x3 : Shape := ⟨2, ![1, 3]⟩
abbrev S50000x3 : Shape := ⟨2, ![50000, 3]⟩
abbrev S5000x3 : Shape := ⟨2, ![5000, 3]⟩

abbrev nBuf : Space → Nat
  | .hbm => 88
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x3, .f32⟩
  | .hbm, ⟨12, _⟩ => ⟨S3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S1x128, .f32⟩
  | .hbm, ⟨30, _⟩ => ⟨S50000x128, .bf16⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x128, .bf16⟩
  | .hbm, ⟨40, _⟩ => ⟨S1600000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S50000x128, .f32⟩
  | .hbm, ⟨55, _⟩ => ⟨S1600000x1, .i32⟩
  | .hbm, ⟨56, _⟩ => ⟨S50000x128, .f32⟩
  | .hbm, ⟨57, _⟩ => ⟨S1x128, .f32⟩
  | .hbm, ⟨58, _⟩ => ⟨S50000x128, .bf16⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .bf16⟩
  | .hbm, ⟨68, _⟩ => ⟨S1600000x128, .f32⟩
  | .hbm, ⟨69, _⟩ => ⟨S_, .i32⟩
  | .hbm, ⟨70, _⟩ => ⟨S1600000, .i32⟩
  | .hbm, ⟨71, _⟩ => ⟨S1600000, .i1⟩
  | .hbm, ⟨72, _⟩ => ⟨S_, .i32⟩
  | .hbm, ⟨73, _⟩ => ⟨S1600000, .i32⟩
  | .hbm, ⟨74, _⟩ => ⟨S1600000, .i32⟩
  | .hbm, ⟨75, _⟩ => ⟨S1600000, .i32⟩
  | .hbm, ⟨76, _⟩ => ⟨S1600000x1, .i32⟩
  | .hbm, ⟨77, _⟩ => ⟨S1600000, .f32⟩
  | .hbm, ⟨78, _⟩ => ⟨S1600000x1, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S50000x128, .f32⟩
  | .hbm, ⟨83, _⟩ => ⟨S1600000x1, .i32⟩
  | .hbm, ⟨84, _⟩ => ⟨S50000x128, .f32⟩
  | .hbm, ⟨85, _⟩ => ⟨S1x128, .f32⟩
  | .hbm, ⟨86, _⟩ => ⟨S1x3, .f32⟩
  | .hbm, ⟨87, _⟩ => ⟨S50000x3, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .bf16⟩
  | .local _ .vmem, ⟨5, _⟩ => ⟨S5000x128, .bf16⟩
  | .local _ .vmem, ⟨6, _⟩ => ⟨S5000x128, .f32⟩
  | .local _ .vmem, ⟨7, _⟩ => ⟨S5000x128, .f32⟩
  | .local _ .vmem, ⟨8, _⟩ => ⟨S5000x128, .bf16⟩
  | .local _ .vmem, ⟨9, _⟩ => ⟨S5000x128, .bf16⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x128, .bf16⟩
  | .local _ .vmem, ⟨18, _⟩ => ⟨S5000x128, .bf16⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S128x3, .f32⟩
  | .local _ .vmem, ⟨23, _⟩ => ⟨S1x3, .f32⟩
  | .local _ .vmem, ⟨24, _⟩ => ⟨S5000x3, .f32⟩
  | .local _ .vmem, ⟨25, _⟩ => ⟨S5000x3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_7 : Ref sig .tc := ⟨.hbm, 59, rfl⟩
abbrev main_v37 : Ref sig .tc := ⟨.hbm, 60, rfl⟩
abbrev main_v38 : Ref sig .tc := ⟨.hbm, 61, rfl⟩
abbrev main_c_8 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_c_9 : Ref sig .tc := ⟨.hbm, 69, rfl⟩
abbrev main_v45 : Ref sig .tc := ⟨.hbm, 70, rfl⟩
abbrev main_v46 : Ref sig .tc := ⟨.hbm, 71, rfl⟩
abbrev main_c_10 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x3 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  shapeCasts_S5000x128_S5000x128 : S5000x128.ShapeCasts S5000x128
  shapeCasts_S3_S1x3 : S3.ShapeCasts S1x3
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  gather_S50000x128_S1600000x1_S1600000x128_1_0_n_n_0_1_1128_wf : GatherDims.WF S50000x128 S1600000x1 S1600000x128 [1] [0] [] [0] [] 1 ![1, 128]
  gather_S50000_S1600000x1_S1600000_n_0_n_n_0_1_1_wf : GatherDims.WF S50000 S1600000x1 S1600000 [] [0] [] [0] [] 1 ![1]
  scatter_S50000x128_S1600000x1_S1600000x128_1_0_0_1_wf : ScatterDims.WF S50000x128 S1600000x1 S1600000x128 [1] [0] [0] 1
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .bf16 = 32 ∨ (Rect.block (s := S50000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .bf16 = 32 ∨ (Rect.block (s := S50000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .bf16 = 32 ∨ (Rect.block (s := S50000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .bf16 = 32 ∨ (Rect.block (s := S50000x128) S5000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x3.size a ≤ S128x3.size a
  hwx2_5 : ∀ i : grid2.Coords, EltTy.bits .f32 = 32 ∨ (Rect.block (s := S128x3) S128x3.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x3.size a ≤ S1x3.size a
  hwx2_6 : ∀ i : grid2.Coords, EltTy.bits .f32 = 32 ∨ (Rect.block (s := S1x3) S1x3.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x3.size a ≤ S50000x3.size a
  hwx2_7 : ∀ i : grid2.Coords, EltTy.bits .f32 = 32 ∨ (Rect.block (s := S50000x3) S5000x3.size (cc2_transform_7 i) (hinb2_7 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v58) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x3.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v60) S5000x3.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S50000x3 : Shape := ⟨2, ![50000, 3]⟩
abbrev S1x3 : Shape := ⟨2, ![1, 3]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x3, .f32⟩
  | .hbm, ⟨12, _⟩ => ⟨S3, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S50000x128, .f32⟩
  | .hbm, ⟨18, _⟩ => ⟨S1x128, .f32⟩
  | .hbm, ⟨19, _⟩ => ⟨S50000x128, .f32⟩
  | .hbm, ⟨20, _⟩ => ⟨S50000x128, .f32⟩
  | .hbm, ⟨21, _⟩ => ⟨S_, .f32⟩
  | .hbm, ⟨22, _⟩ => ⟨S_, .f32⟩
  | .hbm, ⟨23, _⟩ => ⟨S50000x128, .f32⟩
  | .hbm, ⟨24, _⟩ => ⟨S50000x128, .i1⟩
  | .hbm, ⟨25, _⟩ => ⟨S_, .f32⟩
  | .hbm, ⟨26, _⟩ => ⟨S50000x128, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S50000x128, .f32⟩
  | .hbm, ⟨40, _⟩ => ⟨S1600000x1, .i32⟩
  | .hbm, ⟨41, _⟩ => ⟨S50000x128, .f32⟩
  | .hbm, ⟨42, _⟩ => ⟨S_, .f32⟩
  | .hbm, ⟨43, _⟩ => ⟨S1600000, .f32⟩
  | .hbm, ⟨44, _⟩ => ⟨S_, .f32⟩
  | .hbm, ⟨45, _⟩ => ⟨S50000, .f32⟩
  | .hbm, ⟨46, _⟩ => ⟨S1600000x1, .i32⟩
  | .hbm, ⟨47, _⟩ => ⟨S50000, .f32⟩
  | .hbm, ⟨48, _⟩ => ⟨S_, .f32⟩
  | .hbm, ⟨49, _⟩ => ⟨S50000, .f32⟩
  | .hbm, ⟨50, _⟩ => ⟨S50000, .f32⟩
  | .hbm, ⟨51, _⟩ => ⟨S50000x1, .f32⟩
  | .hbm, ⟨52, _⟩ => ⟨S50000x128, .f32⟩
  | .hbm, ⟨53, _⟩ => ⟨S50000x128, .f32⟩
  | .hbm, ⟨54, _⟩ => ⟨S50000x128, .f32⟩
  | .hbm, ⟨55, _⟩ => ⟨S1x128, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S50000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S_, .f32⟩
  | .hbm, ⟨70, _⟩ => ⟨S50000x128, .f32⟩
  | .hbm, ⟨71, _⟩ => ⟨S1600000x1, .i32⟩
  | .hbm, ⟨72, _⟩ => ⟨S50000x128, .f32⟩
  | .hbm, ⟨73, _⟩ => ⟨S_, .f32⟩
  | .hbm, ⟨74, _⟩ => ⟨S1600000, .f32⟩
  | .hbm, ⟨75, _⟩ => ⟨S_, .f32⟩
  | .hbm, ⟨76, _⟩ => ⟨S50000, .f32⟩
  | .hbm, ⟨77, _⟩ => ⟨S1600000x1, .i32⟩
  | .hbm, ⟨78, _⟩ => ⟨S50000, .f32⟩
  | .hbm, ⟨79, _⟩ => ⟨S_, .f32⟩
  | .hbm, ⟨80, _⟩ => ⟨S50000, .f32⟩
  | .hbm, ⟨81, _⟩ => ⟨S50000, .f32⟩
  | .hbm, ⟨82, _⟩ => ⟨S50000x1, .f32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x3, .f32⟩
  | .hbm, ⟨92, _⟩ => ⟨S1x3, .f32⟩
  | .hbm, ⟨93, _⟩ => ⟨S50000x3, .f32⟩
  | .hbm, ⟨94, _⟩ => ⟨S50000x3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_call0_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v8 : Ref sig .tc := ⟨.hbm, 28, rfl⟩
abbrev main_c : Ref sig .tc := ⟨.hbm, 29, rfl⟩
abbrev main_v9 : Ref sig .tc := ⟨.hbm, 30, rfl⟩
abbrev main_v10 : Ref sig .tc := ⟨.hbm, 31, rfl⟩
abbrev main_c_0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_2 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x3_S50000x3_1_0_0_1_n_n_wf : DotDims.WF S50000x128 S128x3 S50000x3 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.Spec.lean ====
/-
  The mathematics the two programs are compared with: a two-layer mean-aggregating graph network over
  50000 nodes with 128 features and 1600000 directed edges, on the extended reals.

  Dense stages, row by row: the input projection `proj` (a 128-term inner product with a weight column, plus a
  bias, through the leaky rectifier), the layer combine `sage` (two inner products, of the aggregated row and of the
  node's own row, and a bias) and the output projection `outp`.

  Aggregation over the edges, in the two arrangements the programs use. `aggR` sums the source rows of the edges
  arriving at a node and then divides by `max (number of arriving edges) 1`; `aggK` multiplies each edge's source
  row by the reciprocal `1 / max (count at the edge's target) 1` first and sums afterwards. Both are written with the
  host's own gather and accumulating scatter, so that each program's text is literally one of them; that they are one
  function is a theorem of another module. `kerOut` and `refOut` compose the stages around `aggK` and `aggR`.
-/
import Idealize.ShloMosaic.PureOps.Ideal
import Idealize.ShloMosaic.Lib.ValueIdx

noncomputable section

open scoped BigOperators

namespace Cert.Sage

open Idealize.ShloMosaic Idealize.ShloMosaic.ValueIdx

/-! ## Shapes -/

/-- nodes × features -/
abbrev SN : Shape := ⟨2, ![50000, 128]⟩
/-- a square weight matrix -/
abbrev SW : Shape := ⟨2, ![128, 128]⟩
/-- a bias row -/
abbrev SB : Shape := ⟨1, ![128]⟩
/-- the output weight matrix -/
abbrev SWo : Shape := ⟨2, ![128, 3]⟩
/-- the output bias -/
abbrev SBo : Shape := ⟨1, ![3]⟩
/-- nodes × outputs -/
abbrev SO : Shape := ⟨2, ![50000, 3]⟩
/-- one value per node -/
abbrev SV : Shape := ⟨1, ![50000]⟩
/-- one value per node, as a column -/
abbrev SV1 : Shape := ⟨2, ![50000, 1]⟩
/-- one value per edge -/
abbrev SE : Shape := ⟨1, ![1600000]⟩
/-- one value per edge, as a column -/
abbrev SE1 : Shape := ⟨2, ![1600000, 1]⟩
/-- edges × features -/
abbrev SEH : Shape := ⟨2, ![1600000, 128]⟩
/-- the two rows (sources, targets) of the edge list -/
abbrev SEI : Shape := ⟨2, ![2, 1600000]⟩
/-- one row of the edge list -/
abbrev SE' : Shape := ⟨2, ![1, 1600000]⟩
/-- a scalar -/
abbrev S0 : Shape := ⟨0, ![]⟩

/-! ## The dense stages -/

/-- The leaky rectifier on one extended real: `v` where `v ≥ 0`, else `0.01 · v` (the slope as the f32 word the
    programs share). -/
def leaky (v : EReal) : EReal :=
  Scalar.select (FloatOps.cmpf (F := Ideal) (φ := .f32) .oge v (Ideal.ofBits .f32 0x00000000#32)) v
    (Ideal.ofBits .f32 0x3C23D70A#32 * v)

/-- Entry `(n, h)` of the input projection. -/
def projAt (x : SN.Idx → EReal) (W : SW.Idx → EReal) (b : SB.Idx → EReal) (n : Fin 50000) (h : Fin 128) : EReal :=
  leaky ((∑ k : Fin 128, x (ix2 n k) * W (ix2 k h)) + b (ix1 h))

/-- The input projection: `leaky (x · W + b)`. -/
def proj (x : SN.Idx → EReal) (W : SW.Idx → EReal) (b : SB.Idx → EReal) : SN.Idx → EReal :=
  fun i => projAt x W b (i 0) (i 1)

/-- Entry `(n, h)` of the layer combine. -/
def sageAt (a x : SN.Idx → EReal) (Wl : SW.Idx → EReal) (bl : SB.Idx → EReal) (Wr : SW.Idx → EReal)
    (n : Fin 50000) (h : Fin 128) : EReal :=
  ((∑ k : Fin 128, a (ix2 n k) * Wl (ix2 k h)) + bl (ix1 h)) + ∑ k : Fin 128, x (ix2 n k) * Wr (ix2 k h)

/-- The layer combine: `(a · Wl + bl) + x · Wr`, `a` the aggregated neighbours and `x` the nodes' own rows. -/
def sage (a x : SN.Idx → EReal) (Wl : SW.Idx → EReal) (bl : SB.Idx → EReal) (Wr : SW.Idx → EReal) : SN.Idx → EReal :=
  fun i => sageAt a x Wl bl Wr (i 0) (i 1)

/-- Entry `(n, o)` of the output projection. -/
def outpAt (y : SN.Idx → EReal) (Wo : SWo.Idx → EReal) (bo : SBo.Idx → EReal) (n : Fin 50000) (o : Fin 3) : EReal :=
  (∑ k : Fin 128, y (ix2 n k) * Wo (ix2 k o)) + bo (ix1 o)

/-- The output projection: `y · Wo + bo`. -/
def outp (y : SN.Idx → EReal) (Wo : SWo.Idx → EReal) (bo : SBo.Idx → EReal) : SO.Idx → EReal :=
  fun i => outpAt y Wo bo (i 0) (i 1)

theorem proj_ix2 (x : SN.Idx → EReal) (W : SW.Idx → EReal) (b : SB.Idx → EReal) (n : Fin 50000) (h : Fin 128) :
    proj x W b (ix2 n h) = projAt x W b n h := rfl
theorem sage_ix2 (a x : SN.Idx → EReal) (Wl : SW.Idx → EReal) (bl : SB.Idx → EReal) (Wr : SW.Idx → EReal)
    (n : Fin 50000) (h : Fin 128) : sage a x Wl bl Wr (ix2 n h) = sageAt a x Wl bl Wr n h := rfl
theorem outp_ix2 (y : SN.Idx → EReal) (Wo : SWo.Idx → EReal) (bo : SBo.Idx → EReal) (n : Fin 50000) (o : Fin 3) :
    outp y Wo bo (ix2 n o) = outpAt y Wo bo n o := rfl

/-! ## The edge list and the two arrangements of the aggregation -/

/-- Row `r` (0 the sources, 1 the targets) of the edge list, as a vector over the edges. -/
def edgeRow (r : Nat) (ei : IVec SEI 32) (hs : SEI.Slices ![r, 0] SE') : IVec SE 32 :=
  shapeCast SE (extractStridedSlice SE' ![r, 0] ei hs) (by decide)

/-- The sources of the edges. -/
def srcOf (ei : IVec SEI 32) : IVec SE 32 := edgeRow 0 ei (by decide)
/-- The targets of the edges. -/
def dstOf (ei : IVec SEI 32) : IVec SE 32 := edgeRow 1 ei (by decide)

/-- A node index read as array indexing reads it: a negative one counts from the end. -/
def wrap (ix : IVec SE 32) : IVec SE 32 :=
  select (cmpi .slt ix (broadcastInDim SE ![] (by decide) (constantI S0 32 0#32)))
    (addi ix (broadcastInDim SE ![] (by decide) (constantI S0 32 50000#32))) ix

/-- A vector over the edges as a column. -/
def col {α : Type} (v : SE.Idx → α) : SE1.Idx → α := broadcastInDim SE1 ![0] (by decide) v

/-- Gathering rows of a node array at one start index per edge. -/
def dGather : GatherDims SN SE1 SEH where
  offsetDims := [1]
  collapsedSliceDims := [0]
  operandBatchingDims := []
  startIndicesBatchingDims := []
  startIndexMap := [0]
  indexVectorDim := 1
  sliceSizes := ![1, 128]
  wf := by decide

/-- Gathering entries of a per-node vector at one start index per edge. -/
def dGather1 : GatherDims SV SE1 SE where
  offsetDims := []
  collapsedSliceDims := [0]
  operandBatchingDims := []
  startIndicesBatchingDims := []
  startIndexMap := [0]
  indexVectorDim := 1
  sliceSizes := ![1]
  wf := by decide

/-- Accumulating one row per edge into the node array at the edge's index. -/
def dScatter : ScatterDims SN SE1 SEH where
  updateWindowDims := [1]
  insertedWindowDims := [0]
  scatterDimsToOperandDims := [0]
  indexVectorDim := 1
  wf := by decide

/-- Accumulating one value per edge into the per-node vector at the edge's index. -/
def dScatter1 : ScatterDims SV SE1 SE where
  updateWindowDims := []
  insertedWindowDims := [0]
  scatterDimsToOperandDims := [0]
  indexVectorDim := 1
  wf := by decide

/-- The number of edges arriving at each node: ones accumulated at the targets, from zero. -/
def cnt (dst : IVec SE 32) : FVec Ideal SV .f32 :=
  Host.scatterAdd dScatter1 (broadcastInDim SV ![] (by decide) (constant S0 .f32 0x00000000#32)) (col dst)
    (broadcastInDim SE ![] (by decide) (constant S0 .f32 0x3F800000#32))

/-- `max (count) 1`: the divisor of the mean, 1 at a node no edge arrives at. -/
def cmax (dst : IVec SE 32) : FVec Ideal SV .f32 :=
  maximumf (cnt dst) (broadcastInDim SV ![] (by decide) (constant S0 .f32 0x3F800000#32))

/-- The source rows of the edges: one row of `x` per edge. -/
def msg (x : FVec Ideal SN .f32) (src : IVec SE 32) : FVec Ideal SEH .f32 :=
  Host.gather dGather x (col (wrap src))

/-- Accumulating one row per edge at the edge's target, from zero. -/
def sumAt (dst : IVec SE 32) (u : FVec Ideal SEH .f32) : FVec Ideal SN .f32 :=
  Host.scatterAdd dScatter (broadcastInDim SN ![] (by decide) (constant S0 .f32 0x00000000#32)) (col dst) u

/-- Sum first, divide afterwards: the sum of the arriving source rows over `max (count) 1`. -/
def aggR (x : FVec Ideal SN .f32) (src dst : IVec SE 32) : FVec Ideal SN .f32 :=
  Host.divf (sumAt dst (msg x src))
    (broadcastInDim SN ![0, 1] (by decide) (broadcastInDim SV1 ![0] (by decide) (cmax dst)))

/-- The reciprocal of `max (count) 1` per node. -/
def cinv (dst : IVec SE 32) : FVec Ideal SV .f32 :=
  Host.divf (broadcastInDim SV ![] (by decide) (constant S0 .f32 0x3F800000#32)) (cmax dst)

/-- Scale first, sum afterwards: each edge's source row times the reciprocal at the edge's target, accumulated. -/
def aggK (x : FVec Ideal SN .f32) (src dst : IVec SE 32) : FVec Ideal SN .f32 :=
  sumAt dst (mulf (msg x src)
    (broadcastInDim SEH ![0, 1] (by decide) (broadcastInDim SE1 ![0] (by decide)
      (Host.gather dGather1 (cinv dst) (col (wrap dst))))))

/-! ## The whole network, in the two arrangements -/

/-- The network with the aggregation scaled edge by edge. -/
def kerOut (f : FVec Ideal SN .f32) (ei : IVec SEI 32) (Win : FVec Ideal SW .f32) (bin : FVec Ideal SB .f32)
    (W1l : FVec Ideal SW .f32) (b1l : FVec Ideal SB .f32) (W1r W2l : FVec Ideal SW .f32) (b2l : FVec Ideal SB .f32)
    (W2r : FVec Ideal SW .f32) (Wout : FVec Ideal SWo .f32) (bout : FVec Ideal SBo .f32) : FVec Ideal SO .f32 :=
  outp (sage (aggK (sage (aggK (proj f Win bin) (srcOf ei) (dstOf ei)) (proj f Win bin) W1l b1l W1r) (srcOf ei) (dstOf ei))
    (sage (aggK (proj f Win bin) (srcOf ei) (dstOf ei)) (proj f Win bin) W1l b1l W1r) W2l b2l W2r) Wout bout

/-- The network with the aggregation divided node by node. -/
def refOut (f : FVec Ideal SN .f32) (ei : IVec SEI 32) (Win : FVec Ideal SW .f32) (bin : FVec Ideal SB .f32)
    (W1l : FVec Ideal SW .f32) (b1l : FVec Ideal SB .f32) (W1r W2l : FVec Ideal SW .f32) (b2l : FVec Ideal SB .f32)
    (W2r : FVec Ideal SW .f32) (Wout : FVec Ideal SWo .f32) (bout : FVec Ideal SBo .f32) : FVec Ideal SO .f32 :=
  outp (sage (aggR (sage (aggR (proj f Win bin) (srcOf ei) (dstOf ei)) (proj f Win bin) W1l b1l W1r) (srcOf ei) (dstOf ei))
    (sage (aggR (proj f Win bin) (srcOf ei) (dstOf ei)) (proj f Win bin) W1l b1l W1r) W2l b2l W2r) Wout bout

end Cert.Sage

end
-- ==== Proof.AggLemmas.lean ====
/-
  The aggregation's two index facts, and the divisor's bound.

  An accumulating scatter of one row per edge adds edge `e`'s row into node row `n` only when the edge's target,
  read as a signed integer, IS `n` (a target outside the node range is dropped). A gather of a per-node vector at one
  start index per edge reads, at edge `e`, the entry at that start index, read signed and clamped into the node range.
  So at an edge whose row lands in node row `n`, gathering at the target (even read the way array indexing reads it,
  a negative index counting from the end) reads entry `n`. And `max (count) 1` is at least 1.
-/
import proofs.«129307_j3298534884298_2_alg».proof.Proof.Spec
import Idealize.ShloMosaic.Lib.Pipeline.Value
import Idealize.ShloMosaic.Lib.IdealHost
import Idealize.ShloMosaic.PureOps.Ideal.Laws

set_option Elab.async false

noncomputable section

open scoped BigOperators

namespace Cert.Sage

open Idealize.ShloMosaic Idealize.ShloMosaic.ValueIdx

/-- The gather of a per-node vector at one start index per edge, read at edge `e`: the entry at the start index,
    read signed and clamped into `[0, 49999]`. -/
theorem gather1_apply {α : Type} {w : Nat} (v : SV.Idx → α) (idx : IVec SE1 w) (e : Fin 1600000) :
    Host.gather dGather1 v idx (ix1 e) = v (ix1 ⟨min (idx (ix2 e 0)).toInt.toNat (50000 - 1), by omega⟩) := by
  unfold Host.gather
  congr 1
  funext a
  obtain rfl : a = 0 := Subsingleton.elim _ _
  refine Fin.ext ?_
  show dGather1.start (ix1 e) idx 0 + dGather1.batchCoord (ix1 e) 0 + dGather1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ dGather1.startIndexMap from List.mem_singleton.mpr rfl)]
  have hsi : dGather1.siIdx (ix1 e) ⟨List.idxOf (0 : Fin 1) dGather1.startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The start index the row scatter reads for edge `e` sits at `(e, 0)` of the index column. -/
theorem scatter_siIdx (e : Fin 1600000) (k : Fin 128) :
    dScatter.siIdx (ix2 e k) ⟨List.idxOf (0 : Fin 2) dScatter.scatterDimsToOperandDims,
      List.idxOf_lt_length_iff.2 (List.mem_singleton.mpr rfl)⟩ = ix2 e 0 := by
  funext b; refine Fin.ext ?_
  match b with
  | ⟨0, _⟩ => rfl
  | ⟨1, _⟩ => rfl

/-- The row axis is not a window axis of the row scatter: an update's window offset there is 0. -/
theorem scatter_window0 (e : Fin 1600000) (k : Fin 128) : dScatter.window (ix2 e k) 0 = 0 := by
  unfold ScatterDims.window
  rw [dif_neg (by decide)]

/-- Where a row update lands: edge `e`'s row is added into node row `n` only if the edge's index, read signed, is `n`. -/
theorem scatter_row {w : Nat} (idx : IVec SE1 w) (e : Fin 1600000) (k : Fin 128) (n : Fin 50000) (h : Fin 128)
    (hr : dScatter.resultIdx? (ix2 e k) idx = some (ix2 n h)) : (idx (ix2 e 0)).toInt = (n.val : Int) := by
  unfold ScatterDims.resultIdx? at hr
  split at hr
  · rename_i hall
    have h0 := congrFun (Option.some.inj hr) 0
    have hv : (dScatter.start (ix2 e k) idx 0 + dScatter.window (ix2 e k) 0).toNat = n.val := congrArg Fin.val h0
    have hst : dScatter.start (ix2 e k) idx 0 = (idx (ix2 e 0)).toInt := by
      unfold ScatterDims.start
      rw [dif_pos (show (0 : Fin 2) ∈ dScatter.scatterDimsToOperandDims from List.mem_singleton.mpr rfl),
        scatter_siIdx e k]
    have hnn := (hall 0).1
    rw [hst, scatter_window0 e k] at hv hnn
    omega
  · cases hr

/-- A column read at row `e`. -/
theorem col_apply {α : Type} (v : SE.Idx → α) (e : Fin 1600000) : col v (ix2 e 0) = v (ix1 e) :=
  broadcastInDim_apply _ _ _ _ (ix1 e) (fun a => by match a with | ⟨0, _⟩ => rfl)

/-- Where the edge's target is a node index (nonnegative), reading it the way array indexing does changes nothing. -/
theorem wrap_of_nonneg (dst : IVec SE 32) (e : Fin 1600000) (n : Nat) (hn : (dst (ix1 e)).toInt = (n : Int)) :
    wrap dst (ix1 e) = dst (ix1 e) := by
  unfold wrap
  rw [select_apply]
  have hc : cmpi .slt dst (broadcastInDim SE ![] (by decide) (constantI S0 32 0#32)) (ix1 e) = 0#1 := by
    show IntOp.cmpi .slt (dst (ix1 e)) 0#32 = 0#1
    unfold IntOp.cmpi
    have hs : (dst (ix1 e)).slt 0#32 = false := by
      rw [BitVec.slt, hn]; simp
    simp [hs]
  rw [hc, select_zero]

/-- The divisor of the mean is at least 1. -/
theorem one_le_cmax (dst : IVec SE 32) (v : SV.Idx) : 1 ≤ cmax dst v := by
  unfold cmax
  rw [maximumf_apply]
  show 1 ≤ max (cnt dst v) (Ideal.ofBits .f32 0x3F800000#32)
  rw [Ideal.ofBits_one_f32]
  exact le_max_right _ _

end Cert.Sage

end
-- ==== Proof.LibERealSum.lean ====
/-
  On the extended reals multiplication does not distribute over addition in general (`⊤ + ⊥`), but a factor that is
  nonnegative and not `⊤` does distribute, and so it moves across a finite sum. Consequence for the host's accumulating
  scatter from zero (each element the exact sum of the updates landing on it): if every update landing on element `i`
  is scaled by one and the same such factor, the factor comes out of element `i`.
-/
import Idealize.ShloMosaic.PureOps.Ideal
import Mathlib.Data.EReal.Operations

open scoped BigOperators

namespace Cert.Sage

open Idealize.ShloMosaic

/-- `(∑ j ∈ s, f j) * c = ∑ j ∈ s, f j * c` for `0 ≤ c`, `c ≠ ⊤`: by induction on the finite set, each step one use of
    right distributivity for such a factor. -/
theorem sum_mul_of_nonneg {ι : Type} (s : Finset ι) (f : ι → EReal) (c : EReal) (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- Element `i` of an accumulating scatter that starts from zero there, of updates `M j * B j` whose factor `B j` is
    the same `c` (nonnegative, not `⊤`) on every update landing at `i`: the scatter of `M` at `i`, times `c`. -/
theorem hostScatterAdd_scaled {s si su : Shape} (d : ScatterDims s si su) {w : Nat} (z : s.Idx → EReal)
    (idx : IVec si w) (M B : su.Idx → EReal) (i : s.Idx) (c : EReal) (hz : z i = 0) (h0 : 0 ≤ c) (ht : c ≠ ⊤)
    (hB : ∀ j, d.resultIdx? j idx = some i → B j = c) :
    Ideal.hostScatterAdd d z idx (fun j => M j * B j) i = Ideal.hostScatterAdd d z idx M i * c := by
  unfold Ideal.hostScatterAdd
  rw [hz, zero_add, zero_add, sum_mul_of_nonneg _ _ _ h0 ht]
  refine Finset.sum_congr rfl (fun j hj => ?_)
  show M j * B j = M j * c
  rw [hB j (Finset.mem_filter.mp hj).2]

end Cert.Sage
-- ==== Proof.AggLaw.lean ====
/-
  The two arrangements of the mean aggregation are one function.

  At node row `n` the divisor `y = max (count n) 1` is at least 1, so it is not 0 and its inverse is a nonnegative
  extended real that is not `⊤`; on the extended reals the quotient by such a `y` is the product with `y⁻¹`.
  Dividing the accumulated sum of the arriving source rows by `y` is therefore that sum times `y⁻¹`. Scaling first:
  an edge whose row lands in node row `n` has target `n` (read signed), so the reciprocal gathered at its target — even
  read the way array indexing reads an index — is `1 / y = y⁻¹`, the same factor on every arriving edge, and a
  nonnegative factor that is not `⊤` moves out of the finite sum.
-/
import proofs.«129307_j3298534884298_2_alg».proof.Proof.AggLemmas
import proofs.«129307_j3298534884298_2_alg».proof.Proof.LibERealSum

set_option Elab.async false

noncomputable section

open scoped BigOperators

namespace Cert.Sage

open Idealize.ShloMosaic Idealize.ShloMosaic.ValueIdx

attribute [local irreducible] cnt msg Ideal.hostScatterAdd

/-- The host's quotient at an index is the quotient of the entries. -/
theorem hostDivf_at {s : Shape} (a b : FVec Ideal s .f32) (i : s.Idx) : Host.divf a b i = Ideal.div (a i) (b i) := rfl

/-- The host's accumulating scatter is the exact sum. -/
theorem scatterAdd_eq {s si su : Shape} (d : ScatterDims s si su) {w : Nat} (z : FVec Ideal s .f32) (idx : IVec si w)
    (u : FVec Ideal su .f32) : Host.scatterAdd d z idx u = Ideal.hostScatterAdd d z idx u := rfl

/-- A product of arrays is the array of the products. -/
theorem mulf_eq {s : Shape} (a b : FVec Ideal s .f32) : mulf a b = fun j => a j * b j := rfl

/-- The splat of the f32 word of 1, read anywhere, is 1. -/
theorem one_bcast (n : Fin 50000) :
    broadcastInDim SV ![] (by decide) (constant (F := Ideal) S0 .f32 0x3F800000#32) (ix1 n) = (1 : EReal) := by
  show Ideal.ofBits .f32 0x3F800000#32 = 1
  exact Ideal.ofBits_one_f32

/-- The splat of the f32 word of 0, read anywhere, is 0. -/
theorem zero_bcast (n : Fin 50000) (h : Fin 128) :
    broadcastInDim SN ![] (by decide) (constant (F := Ideal) S0 .f32 0x00000000#32) (ix2 n h) = (0 : EReal) := by
  show Ideal.ofBits .f32 0x00000000#32 = 0
  exact Ideal.ofBits_zero_f32

/-- A per-node vector as a column, then along the features, read at `(n, h)`: its entry at `n`. -/
theorem bcast_node {α : Type} (v : SV.Idx → α) (n : Fin 50000) (h : Fin 128) :
    broadcastInDim SN ![0, 1] (by decide) (broadcastInDim SV1 ![0] (by decide) v) (ix2 n h) = v (ix1 n) :=
  (broadcastInDim_apply _ _ _ (ix2 n h) (ix2 n (0 : Fin 1))
      (fun a => by match a with | ⟨0, _⟩ => rfl | ⟨1, _⟩ => rfl)).trans
    (broadcastInDim_apply _ _ _ (ix2 n (0 : Fin 1)) (ix1 n) (fun a => by match a with | ⟨0, _⟩ => rfl))

/-- A per-edge vector as a column, then along the features, read at `(e, k)`: its entry at `e`. -/
theorem bcast_edge {α : Type} (v : SE.Idx → α) (e : Fin 1600000) (k : Fin 128) :
    broadcastInDim SEH ![0, 1] (by decide) (broadcastInDim SE1 ![0] (by decide) v) (ix2 e k) = v (ix1 e) :=
  (broadcastInDim_apply _ _ _ (ix2 e k) (ix2 e (0 : Fin 1))
      (fun a => by match a with | ⟨0, _⟩ => rfl | ⟨1, _⟩ => rfl)).trans
    (broadcastInDim_apply _ _ _ (ix2 e (0 : Fin 1)) (ix1 e) (fun a => by match a with | ⟨0, _⟩ => rfl))

/-- The reciprocal at node `n` is the inverse of node `n`'s divisor: the divisor is not 0, where the quotient of 1 is
    the inverse. -/
theorem cinv_apply (dst : IVec SE 32) (n : Fin 50000) : cinv dst (ix1 n) = (cmax dst (ix1 n))⁻¹ := by
  have hcm0 : cmax dst (ix1 n) ≠ 0 := (lt_of_lt_of_le zero_lt_one (one_le_cmax dst (ix1 n))).ne'
  rw [cinv, hostDivf_at, one_bcast n, Ideal.div, if_neg hcm0, one_mul]

/-- Where edge `e`'s target, read signed, is the node `n`: reading it the way array indexing does and clamping it into
    the node range gives `n` again. -/
theorem clamp_wrap_eq (dst : IVec SE 32) (e : Fin 1600000) (n : Fin 50000)
    (hrow : (dst (ix1 e)).toInt = (n.val : Int)) :
    min (col (wrap dst) (ix2 e 0)).toInt.toNat (50000 - 1) = n.val := by
  rw [col_apply, wrap_of_nonneg dst e n.val hrow, hrow]
  have := n.isLt
  simp only [Int.toNat_natCast]
  omega

/-- At an edge whose row lands in node row `n`, the reciprocal gathered at the edge's target is the inverse of node
    `n`'s divisor. -/
theorem factor_at_landing (dst : IVec SE 32) (n : Fin 50000) (h : Fin 128) (j : SEH.Idx)
    (hj : dScatter.resultIdx? j (col dst) = some (ix2 n h)) :
    broadcastInDim SEH ![0, 1] (by decide) (broadcastInDim SE1 ![0] (by decide)
      (Host.gather dGather1 (cinv dst) (col (wrap dst)))) j = (cmax dst (ix1 n))⁻¹ := by
  obtain ⟨e, k, rfl⟩ : ∃ (e : Fin 1600000) (k : Fin 128), j = ix2 e k := ⟨j 0, j 1, eq_ix2 j⟩
  have hrow := scatter_row (col dst) e k n h hj
  rw [col_apply] at hrow
  have hq : (⟨min (col (wrap dst) (ix2 e 0)).toInt.toNat (50000 - 1), by omega⟩ : Fin 50000) = n :=
    Fin.ext (clamp_wrap_eq dst e n hrow)
  rw [bcast_edge, gather1_apply, hq, cinv_apply]

/-- Scaling each arriving row by the reciprocal and then summing is summing and then dividing. -/
theorem aggK_eq_aggR (x : FVec Ideal SN .f32) (src dst : IVec SE 32) : aggK x src dst = aggR x src dst := by
  funext i
  obtain ⟨n, h, rfl⟩ : ∃ (n : Fin 50000) (h : Fin 128), i = ix2 n h := ⟨i 0, i 1, eq_ix2 i⟩
  have hcm1 : 1 ≤ cmax dst (ix1 n) := one_le_cmax dst _
  have hcm0 : cmax dst (ix1 n) ≠ 0 := (lt_of_lt_of_le zero_lt_one hcm1).ne'
  have hinv0 : 0 ≤ (cmax dst (ix1 n))⁻¹ := EReal.inv_nonneg_of_nonneg (le_trans zero_le_one hcm1)
  have hinvT : (cmax dst (ix1 n))⁻¹ ≠ ⊤ := (EReal.inv_lt_top _).ne
  rw [aggK, aggR, sumAt, sumAt, hostDivf_at, scatterAdd_eq, scatterAdd_eq, mulf_eq, bcast_node, Ideal.div, if_neg hcm0]
  exact hostScatterAdd_scaled dScatter _ (col dst) (msg x src) _ (ix2 n h) _ (zero_bcast n h) hinv0 hinvT
    (fun j hj => factor_at_landing dst n h j hj)

/-- Hence the network with either arrangement is one function of the arguments. -/
theorem kerOut_eq_refOut (f : FVec Ideal SN .f32) (ei : IVec SEI 32) (Win : FVec Ideal SW .f32) (bin : FVec Ideal SB .f32)
    (W1l : FVec Ideal SW .f32) (b1l : FVec Ideal SB .f32) (W1r W2l : FVec Ideal SW .f32) (b2l : FVec Ideal SB .f32)
    (W2r : FVec Ideal SW .f32) (Wout : FVec Ideal SWo .f32) (bout : FVec Ideal SBo .f32) :
    kerOut f ei Win bin W1l b1l W1r W2l b2l W2r Wout bout = refOut f ei Win bin W1l b1l W1r W2l b2l W2r Wout bout := by
  rw [kerOut, refOut]
  simp only [aggK_eq_aggR]

end Cert.Sage

end
-- ==== Proof.RegionLib.lean ====
/-
  Entry-by-entry readings shared by the three dense regions.

  A 5000-row block times a weight matrix, accumulated into zero, read at (r, h), is the inner product over the 128
  features of row r of the block with column h of the matrix; a one-row bias spread over the 5000 rows, read at
  (r, h), is entry h of the row. The layer combine on one 5000-row block — aggregated rows times the left matrix, plus
  the bias row, plus the nodes' own rows times the right matrix — read at (r, h) is the specification's combine entry
  written over the block's rows; and that entry over a block's rows is the entry over the arrays' row n whenever the
  block's row r is the arrays' row n.
-/
import proofs.«129307_j3298534884298_2_alg».proof.Proof.Gen.KernelIdeal.Skeleton
import proofs.«129307_j3298534884298_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.ValueIdx

/-- The zero offsets of a whole-buffer access. -/
theorem zeros2 : (![0, 0] : Fin 2 → Nat) = fun _ => 0 := funext fun a => by fin_cases a <;> rfl

/-- A [5000,128] block times a [128,128] matrix, into zero, at (r, h): row r against column h. -/
theorem matmul128_apply {φ₁ φ₂ : FTy} (x : FVec Ideal S5000x128 φ₁) (W : FVec Ideal S128x128 φ₂) (r : Fin 5000) (h : Fin 128) :
    matmul dot_S5000x128_S128x128_S5000x128_1_0_0_1_n_n none x W (constant (F := Ideal) S5000x128 .f32 0x00000000#32) (ix2 r h)
      = ∑ k : Fin 128, x (ix2 r k) * W (ix2 k h) := by
  show FloatOps.matmul _ none x W _ (ix2 r h) = _
  rw [Ideal.matmul_constant_zero_apply,
    ← Equiv.sum_comp (contrEquiv1 dot_S5000x128_S128x128_S5000x128_1_0_0_1_n_n 128 rfl rfl).symm]
  refine Finset.sum_congr rfl fun k _ => ?_
  have ck := contrEquiv1_symm_val dot_S5000x128_S128x128_S5000x128_1_0_0_1_n_n 128 rfl rfl k
  have el : dot_S5000x128_S128x128_S5000x128_1_0_0_1_n_n.lhsIdx (ix2 r h) ((contrEquiv1 _ 128 rfl rfl).symm k) = ix2 r k := by
    funext ax; apply Fin.ext
    match ax with
    | ⟨0, _⟩ => simp [DotDims.lhsIdx, dot_S5000x128_S128x128_S5000x128_1_0_0_1_n_n]; rfl
    | ⟨1, _⟩ => simp [DotDims.lhsIdx, dot_S5000x128_S128x128_S5000x128_1_0_0_1_n_n]; exact ck
  have er : dot_S5000x128_S128x128_S5000x128_1_0_0_1_n_n.rhsIdx (ix2 r h) ((contrEquiv1 _ 128 rfl rfl).symm k) = ix2 k h := by
    funext ax; apply Fin.ext
    match ax with
    | ⟨0, _⟩ => simp [DotDims.rhsIdx, dot_S5000x128_S128x128_S5000x128_1_0_0_1_n_n]; exact ck
    | ⟨1, _⟩ => simp [DotDims.rhsIdx, dot_S5000x128_S128x128_S5000x128_1_0_0_1_n_n]; rfl
  rw [el, er]

/-- A [5000,128] block times a [128,3] matrix, into zero, at (r, o): row r against column o. -/
theorem matmul3_apply {φ₁ φ₂ : FTy} (x : FVec Ideal S5000x128 φ₁) (W : FVec Ideal S128x3 φ₂) (r : Fin 5000) (o : Fin 3) :
    matmul dot_S5000x128_S128x3_S5000x3_1_0_0_1_n_n none x W (constant (F := Ideal) S5000x3 .f32 0x00000000#32) (ix2 r o)
      = ∑ k : Fin 128, x (ix2 r k) * W (ix2 k o) := by
  show FloatOps.matmul _ none x W _ (ix2 r o) = _
  rw [Ideal.matmul_constant_zero_apply,
    ← Equiv.sum_comp (contrEquiv1 dot_S5000x128_S128x3_S5000x3_1_0_0_1_n_n 128 rfl rfl).symm]
  refine Finset.sum_congr rfl fun k _ => ?_
  have ck := contrEquiv1_symm_val dot_S5000x128_S128x3_S5000x3_1_0_0_1_n_n 128 rfl rfl k
  have el : dot_S5000x128_S128x3_S5000x3_1_0_0_1_n_n.lhsIdx (ix2 r o) ((contrEquiv1 _ 128 rfl rfl).symm k) = ix2 r k := by
    funext ax; apply Fin.ext
    match ax with
    | ⟨0, _⟩ => simp [DotDims.lhsIdx, dot_S5000x128_S128x3_S5000x3_1_0_0_1_n_n]; rfl
    | ⟨1, _⟩ => simp [DotDims.lhsIdx, dot_S5000x128_S128x3_S5000x3_1_0_0_1_n_n]; exact ck
  have er : dot_S5000x128_S128x3_S5000x3_1_0_0_1_n_n.rhsIdx (ix2 r o) ((contrEquiv1 _ 128 rfl rfl).symm k) = ix2 k o := by
    funext ax; apply Fin.ext
    match ax with
    | ⟨0, _⟩ => simp [DotDims.rhsIdx, dot_S5000x128_S128x3_S5000x3_1_0_0_1_n_n]; exact ck
    | ⟨1, _⟩ => simp [DotDims.rhsIdx, dot_S5000x128_S128x3_S5000x3_1_0_0_1_n_n]; rfl
  rw [el, er]

/-- A [1,128] bias row spread over 5000 rows, at (r, h): entry h of the row. -/
theorem biasRow128_apply {α : Type} (b : S1x128.Idx → α) (r : Fin 5000) (h : Fin 128) :
    broadcastTo S5000x128 (shapeCast S1x128 b shapeCasts_S1x128_S1x128) broadcasts_S1x128_S5000x128 (ix2 r h) = b (ix2 0 h) := by
  rw [shapeCast_self]
  refine broadcastTo_apply b _ (ix2 r h) (ix2 0 h) fun a => ?_
  match a with
  | ⟨0, _⟩ => rfl
  | ⟨1, _⟩ => rfl

/-- A [1,3] bias row spread over 5000 rows, at (r, o): entry o of the row. -/
theorem biasRow3_apply {α : Type} (b : S1x3.Idx → α) (r : Fin 5000) (o : Fin 3) :
    broadcastTo S5000x3 (shapeCast S1x3 b shapeCasts_S1x3_S1x3) broadcasts_S1x3_S5000x3 (ix2 r o) = b (ix2 0 o) := by
  rw [shapeCast_self]
  refine broadcastTo_apply b _ (ix2 r o) (ix2 0 o) fun a => ?_
  match a with
  | ⟨0, _⟩ => rfl
  | ⟨1, _⟩ => rfl

/-- The layer combine on one 5000-row block: the aggregated rows `a` times the left matrix plus the bias row, plus the
    nodes' own rows `x` times the right matrix. -/
def combineBlock (a : Vec Ideal S5000x128 .f32) (x : Vec Ideal S5000x128 .bf16) (Wl Wr : Vec Ideal S128x128 .f32)
    (bl : Vec Ideal S1x128 .f32) : FVec Ideal S5000x128 .f32 :=
  addf (addf (matmul dot_S5000x128_S128x128_S5000x128_1_0_0_1_n_n none
        (truncf .bf16 (shapeCast S5000x128 a shapeCasts_S5000x128_S5000x128) bitsLt_bf16_f32) (truncf .bf16 Wl bitsLt_bf16_f32)
        (constant (F := Ideal) S5000x128 .f32 0x00000000#32))
      (broadcastTo S5000x128 (shapeCast S1x128 bl shapeCasts_S1x128_S1x128) broadcasts_S1x128_S5000x128))
    (matmul dot_S5000x128_S128x128_S5000x128_1_0_0_1_n_n none (shapeCast S5000x128 x shapeCasts_S5000x128_S5000x128 : FVec Ideal S5000x128 .bf16)
      (truncf .bf16 Wr bitsLt_bf16_f32) (constant (F := Ideal) S5000x128 .f32 0x00000000#32))

/-- Its entry (r, h): row r of `a` against column h of the left matrix, plus the bias at h, plus row r of `x` against
    column h of the right matrix. -/
theorem combineBlock_apply (a : Vec Ideal S5000x128 .f32) (x : Vec Ideal S5000x128 .bf16) (Wl Wr : Vec Ideal S128x128 .f32)
    (bl : Vec Ideal S1x128 .f32) (r : Fin 5000) (h : Fin 128) :
    combineBlock a x Wl Wr bl (ix2 r h)
      = ((∑ k : Fin 128, a (ix2 r k) * Wl (ix2 k h)) + bl (ix2 0 h)) + ∑ k : Fin 128, x (ix2 r k) * Wr (ix2 k h) := by
  show (matmul dot_S5000x128_S128x128_S5000x128_1_0_0_1_n_n none
        (truncf .bf16 (shapeCast S5000x128 a shapeCasts_S5000x128_S5000x128) bitsLt_bf16_f32) (truncf .bf16 Wl bitsLt_bf16_f32)
        (constant (F := Ideal) S5000x128 .f32 0x00000000#32) (ix2 r h)
      + broadcastTo S5000x128 (shapeCast S1x128 bl shapeCasts_S1x128_S1x128) broadcasts_S1x128_S5000x128 (ix2 r h))
    + matmul dot_S5000x128_S128x128_S5000x128_1_0_0_1_n_n none (shapeCast S5000x128 x shapeCasts_S5000x128_S5000x128 : FVec Ideal S5000x128 .bf16)
        (truncf .bf16 Wr bitsLt_bf16_f32) (constant (F := Ideal) S5000x128 .f32 0x00000000#32) (ix2 r h) = _
  rw [biasRow128_apply, matmul128_apply, matmul128_apply]
  simp only [shapeCast_self]
  rfl

/-- The combine entry over a block's row `r` is the specification's combine entry over the arrays' row `n`, when the
    block's row `r` of each row-blocked operand is the array's row `n` and the whole operands are the arrays. -/
theorem combine_row_eq (a' x' : S5000x128.Idx → EReal) (Wl' Wr' : S128x128.Idx → EReal) (bl' : S1x128.Idx → EReal)
    (a x : Cert.Sage.SN.Idx → EReal) (Wl : Cert.Sage.SW.Idx → EReal) (bl : Cert.Sage.SB.Idx → EReal)
    (Wr : Cert.Sage.SW.Idx → EReal) (r : Fin 5000) (n : Fin 50000) (h : Fin 128)
    (ha : ∀ k : Fin 128, a' (ix2 r k) = a (ix2 n k)) (hx : ∀ k : Fin 128, x' (ix2 r k) = x (ix2 n k))
    (hWl : ∀ k : Fin 128, Wl' (ix2 k h) = Wl (ix2 k h)) (hWr : ∀ k : Fin 128, Wr' (ix2 k h) = Wr (ix2 k h))
    (hb : bl' (ix2 0 h) = bl (ix1 h)) :
    ((∑ k : Fin 128, a' (ix2 r k) * Wl' (ix2 k h)) + bl' (ix2 0 h)) + ∑ k : Fin 128, x' (ix2 r k) * Wr' (ix2 k h)
      = Cert.Sage.sageAt a x Wl bl Wr n h := by
  unfold Cert.Sage.sageAt
  rw [hb]
  refine congrArg₂ (· + ·) (congrArg (· + bl (ix1 h)) (Finset.sum_congr rfl fun k _ => ?_)) (Finset.sum_congr rfl fun k _ => ?_)
  · rw [ha k, hWl k]
  · rw [hx k, hWr k]

end Cert.KernelIdeal.RegionValue

end
-- ==== Proof.Region0.lean ====
/-
  The first dense region: the input projection.

  Each of the ten grid points reads 5000 consecutive rows of the features, the whole projection matrix and the whole
  bias row, and leaves in its 5000 rows of the output the leaky rectifier of (row · matrix column + bias entry). Read
  entry by entry, and the ten row blocks put side by side, the output array is the input projection of the
  specification applied to the three arrays the region found.
-/
import proofs.«129307_j3298534884298_2_alg».proof.Proof.Gen.KernelIdeal.Frame
import proofs.«129307_j3298534884298_2_alg».proof.Proof.Spec
import proofs.«129307_j3298534884298_2_alg».proof.Proof.RegionLib
import Idealize.ShloMosaic.Lib.Pipeline.Value

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-- One entry of what a grid point computes from its feature rows `x`, the matrix `W` and the bias row `b`: the leaky
    rectifier of the inner product of row `r` with column `h`, plus the bias at `h`. -/
theorem k0_pay1_apply (x : Vec Ideal S5000x128 .f32) (W : Vec Ideal S128x128 .f32) (b : Vec Ideal S1x128 .f32)
    (r : Fin 5000) (h : Fin 128) :
    k0_pay1 (F := Ideal) x W b (ix2 r h) = Cert.Sage.leaky ((∑ k : Fin 128, x (ix2 r k) * W (ix2 k h)) + b (ix2 0 h)) := by
  have e : k0_pay1 (F := Ideal) x W b (ix2 r h)
      = Cert.Sage.leaky (matmul dot_S5000x128_S128x128_S5000x128_1_0_0_1_n_n none (truncf .bf16 x bitsLt_bf16_f32)
            (truncf .bf16 W bitsLt_bf16_f32) (constant (F := Ideal) S5000x128 .f32 0x00000000#32) (ix2 r h)
          + broadcastTo S5000x128 (shapeCast S1x128 b shapeCasts_S1x128_S1x128) broadcasts_S1x128_S5000x128 (ix2 r h)) := rfl
  rw [e, matmul128_apply, biasRow128_apply]
  rfl

section
variable (V : (c : Dev nD) → (b : Ref sig .tc) → Buf (Elt Ideal) ((c : Thread nD τ).loc b)) (c : Dev nD)

/-- The index maps over the grid: the features and the output move one row block per point, the matrix and the
    bias row stay whole. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- An entry of the features' block at point `t`: row `5000 t + r` of the array. -/
theorem iblk0_0_apply (t : Fin cfg0.N) (r : Fin 5000) (k : Fin 128) (n : Fin 50000) (hn : n.val = t.val * 5000 + r.val) :
    (iblk0 (F := Ideal) V c 0 t : S5000x128.Idx → EReal) (ix2 r k) = (V c main_arg0 : S50000x128.Idx → EReal) (ix2 n k) := by
  obtain ⟨e0, e1, -⟩ := index_facts0 t
  unfold iblk0
  rw [View.read_apply]
  show (V c main_arg0 : S50000x128.Idx → EReal) _ = _
  refine congrArg _ (funext fun a => Fin.ext ?_)
  match a with
  | ⟨0, _⟩ => show win0_0.index t (0 : Fin 2) * 5000 + 1 * r.val = n.val; rw [e0, hn]; omega
  | ⟨1, _⟩ => show win0_0.index t (1 : Fin 2) * 128 + 1 * k.val = k.val; rw [e1]; omega

/-- The matrix's block at any point is the matrix. -/
theorem iblk0_1_apply (t : Fin cfg0.N) (k h : Fin 128) :
    (iblk0 (F := Ideal) V c 1 t : S128x128.Idx → EReal) (ix2 k h) = (V c main_arg3 : S128x128.Idx → EReal) (ix2 k h) := by
  obtain ⟨-, -, e2, e3, -⟩ := index_facts0 t
  unfold iblk0
  rw [View.read_apply]
  show (V c main_arg3 : S128x128.Idx → EReal) _ = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 128 + 1 * h.val = h.val; rw [e3]; omega

/-- The bias row's block at any point is the bias row. -/
theorem iblk0_2_apply (t : Fin cfg0.N) (h : Fin 128) :
    (iblk0 (F := Ideal) V c 2 t : S1x128.Idx → EReal) (ix2 0 h) = (V c main_v12 : S1x128.Idx → EReal) (ix2 0 h) := by
  obtain ⟨-, -, -, -, e4, e5, -⟩ := index_facts0 t
  unfold iblk0
  rw [View.read_apply]
  show (V c main_v12 : S1x128.Idx → EReal) _ = _
  refine congrArg _ (funext fun a => Fin.ext ?_)
  match a with
  | ⟨0, _⟩ => show win0_2.index t (0 : Fin 2) * 1 + 1 * 0 = 0; rw [e4]
  | ⟨1, _⟩ => show win0_2.index t (1 : Fin 2) * 128 + 1 * h.val = h.val; rw [e5]; omega

/-- What point `t` writes back is rows `5000 t … 5000 t + 4999` of the input projection of the arrays the region found. -/
theorem flushed0_eq (t : Fin cfg0.N) :
    (dat0 (F := Ideal) V c).flushed 3 t = ((cfg0.win 3).blk t).view.read (Elt Ideal)
      (Cert.Sage.proj (V c main_arg0) (V c main_arg3) (fun j => V c main_v12 (ix2 0 (j 0)))) := by
  show (cfg0.win 3).cut (grid0.coords t) ((dat0 (F := Ideal) V c).after 3 t) = _
  rw [after0_3]
  unfold out0_3
  rw [View.canon_unit_zero zeros2]
  simp only [View.ld_unit_zero (S := S5000x128) zeros2, View.ld_unit_zero (S := S128x128) zeros2,
    View.ld_unit_zero (S := S1x128) zeros2]
  refine funext fun (j : S5000x128.Idx) => ?_
  obtain ⟨r, h, rfl⟩ : ∃ (r : Fin 5000) (h : Fin 128), j = ix2 r h := ⟨j 0, j 1, eq_ix2 j⟩
  have hN : cfg0.N = 10 := N_0
  have ht : t.val < 10 := hN ▸ t.isLt
  obtain ⟨-, -, -, -, -, -, e6, e7⟩ := index_facts0 t
  have hemb : ((cfg0.win 3).blk t).view.emb (ix2 r h)
      = (ix2 (⟨t.val * 5000 + r.val, by have := r.isLt; omega⟩ : Fin 50000) h : S50000x128.Idx) := by
    refine funext fun a => Fin.ext ?_
    match a with
    | ⟨0, _⟩ => show win0_3.index t (0 : Fin 2) * 5000 + 1 * r.val = t.val * 5000 + r.val; rw [e6]; omega
    | ⟨1, _⟩ => show win0_3.index t (1 : Fin 2) * 128 + 1 * h.val = h.val; rw [e7]; omega
  show k0_pay1 (F := Ideal) (iblk0 V c 0 t) (iblk0 V c 1 t) (iblk0 V c 2 t) (ix2 r h)
    = Cert.Sage.proj (V c main_arg0) (V c main_arg3) (fun j => V c main_v12 (ix2 0 (j 0))) (((cfg0.win 3).blk t).view.emb (ix2 r h))
  refine (k0_pay1_apply (iblk0 V c 0 t) (iblk0 V c 1 t) (iblk0 V c 2 t) r h).trans ?_
  rw [hemb, Cert.Sage.proj_ix2]
  unfold Cert.Sage.projAt
  refine congrArg Cert.Sage.leaky (congrArg₂ (· + ·) (Finset.sum_congr rfl fun k _ => congrArg₂ (· * ·) ?_ ?_) ?_)
  · exact iblk0_0_apply V c t r k _ rfl
  · exact iblk0_1_apply V c t k h
  · exact iblk0_2_apply V c t h

/-- An index of the output array is in point `t`'s block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v13).slice (win0_3.rect t)).set ↔ _
  rw [View.set_slice_whole, Rect.mem_set_unit]
  exact Iff.rfl

/-- Every row of the output is in the block of the point numbered by the row over 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  refine ⟨⟨(i 0).val / 5000, by rw [hN]; omega⟩, flush0_3 _, ?_⟩
  rw [mem_blk0]
  obtain ⟨-, -, -, -, -, -, e6, e7⟩ := index_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e6]; show (i 0).val / 5000 * 5000 ≤ (i 0).val ∧ (i 0).val < (i 0).val / 5000 * 5000 + 5000; omega
  | ⟨1, _⟩ =>
    show win0_3.index _ (1 : Fin 2) * 128 ≤ (i 1).val ∧ (i 1).val < win0_3.index _ (1 : Fin 2) * 128 + 128
    rw [e7]; omega

/-- The output array of the first region, whole: the input projection of the features, the projection matrix and the
    bias row as the region found them. -/
theorem final0 : (dat0 (F := Ideal) V c).arrAt 3 cfg0.N
    = Cert.Sage.proj (V c main_arg0) (V c main_arg3) (fun j => V c main_v12 (ix2 0 (j 0))) :=
  (dat0 (F := Ideal) V c).arrAt_eq_of_cover 3 _ (fun t _ => flushed0_eq V c t) (cover0)

end

end Cert.KernelIdeal.RegionValue

end
-- ==== Proof.Region1.lean ====
/-
  The second dense region: the first layer's combine.

  Each of the ten grid points reads 5000 consecutive rows of the aggregated neighbours and of the nodes' own rows, the
  two whole weight matrices and the whole bias row, and leaves in its 5000 rows of the output
  (aggregated row · left column + bias entry) + (own row · right column). Read entry by entry, and the ten row blocks
  put side by side, the output array is the layer combine of the specification applied to the five arrays the region
  found.
-/
import proofs.«129307_j3298534884298_2_alg».proof.Proof.Gen.KernelIdeal.Frame
import proofs.«129307_j3298534884298_2_alg».proof.Proof.Spec
import proofs.«129307_j3298534884298_2_alg».proof.Proof.RegionLib
import Idealize.ShloMosaic.Lib.Pipeline.Value

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-- What a grid point computes is the layer combine on its block (the narrowing of the result keeps every value). -/
theorem k1_pay1_apply (a : Vec Ideal S5000x128 .f32) (x : Vec Ideal S5000x128 .bf16) (Wl Wr : Vec Ideal S128x128 .f32)
    (bl : Vec Ideal S1x128 .f32) (r : Fin 5000) (h : Fin 128) :
    k1_pay1 (F := Ideal) a x Wl Wr bl (ix2 r h)
      = ((∑ k : Fin 128, a (ix2 r k) * Wl (ix2 k h)) + bl (ix2 0 h)) + ∑ k : Fin 128, x (ix2 r k) * Wr (ix2 k h) := by
  have e : k1_pay1 (F := Ideal) a x Wl Wr bl (ix2 r h) = combineBlock a x Wl Wr bl (ix2 r h) := rfl
  rw [e, combineBlock_apply]

section
variable (V : (c : Dev nD) → (b : Ref sig .tc) → Buf (Elt Ideal) ((c : Thread nD τ).loc b)) (c : Dev nD)

/-- The index maps over the grid: the aggregated rows, the nodes' own rows and the output move one row block per point;
    the two matrices and the bias row stay whole. -/
theorem index1_0 : ∀ t : Fin cfg1.N, win1_0.index t (0 : Fin 2) = t.val ∧ win1_0.index t (1 : Fin 2) = 0 :=
  (by decide +kernel : ∀ t : Fin grid1.N, _)
theorem index1_1 : ∀ t : Fin cfg1.N, win1_1.index t (0 : Fin 2) = t.val ∧ win1_1.index t (1 : Fin 2) = 0 :=
  (by decide +kernel : ∀ t : Fin grid1.N, _)
theorem index1_2 : ∀ t : Fin cfg1.N, win1_2.index t (0 : Fin 2) = 0 ∧ win1_2.index t (1 : Fin 2) = 0 :=
  (by decide +kernel : ∀ t : Fin grid1.N, _)
theorem index1_3 : ∀ t : Fin cfg1.N, win1_3.index t (0 : Fin 2) = 0 ∧ win1_3.index t (1 : Fin 2) = 0 :=
  (by decide +kernel : ∀ t : Fin grid1.N, _)
theorem index1_4 : ∀ t : Fin cfg1.N, win1_4.index t (0 : Fin 2) = 0 ∧ win1_4.index t (1 : Fin 2) = 0 :=
  (by decide +kernel : ∀ t : Fin grid1.N, _)
theorem index1_5 : ∀ t : Fin cfg1.N, win1_5.index t (0 : Fin 2) = t.val ∧ win1_5.index t (1 : Fin 2) = 0 :=
  (by decide +kernel : ∀ t : Fin grid1.N, _)

/-- An entry of the aggregated rows' block at point `t`: row `5000 t + r` of the array. -/
theorem iblk1_0_apply (t : Fin cfg1.N) (r : Fin 5000) (k : Fin 128) (n : Fin 50000) (hn : n.val = t.val * 5000 + r.val) :
    (iblk1 (F := Ideal) V c 0 t : S5000x128.Idx → EReal) (ix2 r k) = (V c main_v34 : S50000x128.Idx → EReal) (ix2 n k) := by
  obtain ⟨e0, e1⟩ := index1_0 t
  unfold iblk1
  rw [View.read_apply]
  show (V c main_v34 : S50000x128.Idx → EReal) _ = _
  refine congrArg _ (funext fun a => Fin.ext ?_)
  match a with
  | ⟨0, _⟩ => show win1_0.index t (0 : Fin 2) * 5000 + 1 * r.val = n.val; rw [e0, hn]; omega
  | ⟨1, _⟩ => show win1_0.index t (1 : Fin 2) * 128 + 1 * k.val = k.val; rw [e1]; omega

/-- An entry of the nodes' own rows' block at point `t`: row `5000 t + r` of the array. -/
theorem iblk1_1_apply (t : Fin cfg1.N) (r : Fin 5000) (k : Fin 128) (n : Fin 50000) (hn : n.val = t.val * 5000 + r.val) :
    (iblk1 (F := Ideal) V c 1 t : S5000x128.Idx → EReal) (ix2 r k) = (V c main_v13 : S50000x128.Idx → EReal) (ix2 n k) := by
  obtain ⟨e0, e1⟩ := index1_1 t
  unfold iblk1
  rw [View.read_apply]
  show (V c main_v13 : S50000x128.Idx → EReal) _ = _
  refine congrArg _ (funext fun a => Fin.ext ?_)
  match a with
  | ⟨0, _⟩ => show win1_1.index t (0 : Fin 2) * 5000 + 1 * r.val = n.val; rw [e0, hn]; omega
  | ⟨1, _⟩ => show win1_1.index t (1 : Fin 2) * 128 + 1 * k.val = k.val; rw [e1]; omega

/-- The left matrix's block at any point is the matrix. -/
theorem iblk1_2_apply (t : Fin cfg1.N) (k : Fin 128) (h : Fin 128) :
    (iblk1 (F := Ideal) V c 2 t : S128x128.Idx → EReal) (ix2 k h) = (V c main_arg5 : S128x128.Idx → EReal) (ix2 k h) := by
  obtain ⟨e0, e1⟩ := index1_2 t
  unfold iblk1
  rw [View.read_apply]
  show (V c main_arg5 : S128x128.Idx → EReal) _ = _
  refine congrArg _ (funext fun a => Fin.ext ?_)
  match a with
  | ⟨0, _⟩ => show win1_2.index t (0 : Fin 2) * 128 + 1 * k.val = k.val; rw [e0]; omega
  | ⟨1, _⟩ => show win1_2.index t (1 : Fin 2) * 128 + 1 * h.val = h.val; rw [e1]; omega

/-- The bias row's block at any point is the bias row. -/
theorem iblk1_3_apply (t : Fin cfg1.N) (k : Fin 1) (h : Fin 128) :
    (iblk1 (F := Ideal) V c 3 t : S1x128.Idx → EReal) (ix2 k h) = (V c main_v35 : S1x128.Idx → EReal) (ix2 k h) := by
  obtain ⟨e0, e1⟩ := index1_3 t
  unfold iblk1
  rw [View.read_apply]
  show (V c main_v35 : S1x128.Idx → EReal) _ = _
  refine congrArg _ (funext fun a => Fin.ext ?_)
  match a with
  | ⟨0, _⟩ => show win1_3.index t (0 : Fin 2) * 1 + 1 * k.val = k.val; rw [e0]; omega
  | ⟨1, _⟩ => show win1_3.index t (1 : Fin 2) * 128 + 1 * h.val = h.val; rw [e1]; omega

/-- The right matrix's block at any point is the matrix. -/
theorem iblk1_4_apply (t : Fin cfg1.N) (k : Fin 128) (h : Fin 128) :
    (iblk1 (F := Ideal) V c 4 t : S128x128.Idx → EReal) (ix2 k h) = (V c main_arg7 : S128x128.Idx → EReal) (ix2 k h) := by
  obtain ⟨e0, e1⟩ := index1_4 t
  unfold iblk1
  rw [View.read_apply]
  show (V c main_arg7 : S128x128.Idx → EReal) _ = _
  refine congrArg _ (funext fun a => Fin.ext ?_)
  match a with
  | ⟨0, _⟩ => show win1_4.index t (0 : Fin 2) * 128 + 1 * k.val = k.val; rw [e0]; omega
  | ⟨1, _⟩ => show win1_4.index t (1 : Fin 2) * 128 + 1 * h.val = h.val; rw [e1]; omega

/-- What point `t` writes back is rows `5000 t … 5000 t + 4999` of the layer combine of the arrays the region found. -/
theorem flushed1_eq (t : Fin cfg1.N) :
    (dat1 (F := Ideal) V c).flushed 5 t = ((cfg1.win 5).blk t).view.read (Elt Ideal)
      (Cert.Sage.sage (V c main_v34) (V c main_v13) (V c main_arg5) (fun j => V c main_v35 (ix2 0 (j 0))) (V c main_arg7)) := by
  show (cfg1.win 5).cut (grid1.coords t) ((dat1 (F := Ideal) V c).after 5 t) = _
  rw [after1_5]
  unfold out1_5
  rw [View.canon_unit_zero zeros2]
  simp only [View.ld_unit_zero (S := S5000x128) zeros2, View.ld_unit_zero (S := S128x128) zeros2,
    View.ld_unit_zero (S := S1x128) zeros2]
  refine funext fun (j : S5000x128.Idx) => ?_
  obtain ⟨r, h, rfl⟩ : ∃ (r : Fin 5000) (h : Fin 128), j = ix2 r h := ⟨j 0, j 1, eq_ix2 j⟩
  have hN : cfg1.N = 10 := N_1
  have ht : t.val < 10 := hN ▸ t.isLt
  obtain ⟨e0, e1⟩ := index1_5 t
  have hemb : ((cfg1.win 5).blk t).view.emb (ix2 r h)
      = (ix2 (⟨t.val * 5000 + r.val, by have := r.isLt; omega⟩ : Fin 50000) h : S50000x128.Idx) := by
    refine funext fun a => Fin.ext ?_
    match a with
    | ⟨0, _⟩ => show win1_5.index t (0 : Fin 2) * 5000 + 1 * r.val = t.val * 5000 + r.val; rw [e0]; omega
    | ⟨1, _⟩ => show win1_5.index t (1 : Fin 2) * 128 + 1 * h.val = h.val; rw [e1]; omega
  show k1_pay1 (F := Ideal) (iblk1 V c 0 t) (iblk1 V c 1 t) (iblk1 V c 2 t) (iblk1 V c 4 t) (iblk1 V c 3 t) (ix2 r h)
    = Cert.Sage.sage (V c main_v34) (V c main_v13) (V c main_arg5) (fun j => V c main_v35 (ix2 0 (j 0))) (V c main_arg7)
        (((cfg1.win 5).blk t).view.emb (ix2 r h))
  refine (k1_pay1_apply (iblk1 V c 0 t) (iblk1 V c 1 t) (iblk1 V c 2 t) (iblk1 V c 4 t) (iblk1 V c 3 t) r h).trans ?_
  rw [hemb, Cert.Sage.sage_ix2]
  exact combine_row_eq (iblk1 V c 0 t) (iblk1 V c 1 t) (iblk1 V c 2 t) (iblk1 V c 4 t) (iblk1 V c 3 t)
    (V c main_v34) (V c main_v13) (V c main_arg5) (fun j => V c main_v35 (ix2 0 (j 0))) (V c main_arg7) r _ h
    (fun k => iblk1_0_apply V c t r k _ rfl) (fun k => iblk1_1_apply V c t r k _ rfl)
    (fun k => iblk1_2_apply V c t k h) (fun k => iblk1_4_apply V c t k h) (iblk1_3_apply V c t 0 h)

/-- An index of the output array is in point `t`'s block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v36).slice (win1_5.rect t)).set ↔ _
  rw [View.set_slice_whole, Rect.mem_set_unit]
  exact Iff.rfl

/-- Every row of the output is in the block of the point numbered by the row over 5000. -/
theorem cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  refine ⟨⟨(i 0).val / 5000, by rw [hN]; omega⟩, flush1_5 _, ?_⟩
  rw [mem_blk1]
  obtain ⟨e0, e1⟩ := index1_5 ⟨(i 0).val / 5000, by rw [hN]; omega⟩
  intro a
  match a with
  | ⟨0, _⟩ =>
    show win1_5.index _ (0 : Fin 2) * 5000 ≤ (i 0).val ∧ (i 0).val < win1_5.index _ (0 : Fin 2) * 5000 + 5000
    rw [e0]; show (i 0).val / 5000 * 5000 ≤ (i 0).val ∧ (i 0).val < (i 0).val / 5000 * 5000 + 5000; omega
  | ⟨1, _⟩ =>
    show win1_5.index _ (1 : Fin 2) * 128 ≤ (i 1).val ∧ (i 1).val < win1_5.index _ (1 : Fin 2) * 128 + 128
    rw [e1]; omega

/-- The output array of the second region, whole: the layer combine of the aggregated rows, the nodes' own rows, the
    two matrices and the bias row as the region found them. -/
theorem final1 : (dat1 (F := Ideal) V c).arrAt 5 cfg1.N
    = Cert.Sage.sage (V c main_v34) (V c main_v13) (V c main_arg5) (fun j => V c main_v35 (ix2 0 (j 0))) (V c main_arg7) :=
  (dat1 (F := Ideal) V c).arrAt_eq_of_cover 5 _ (fun t _ => flushed1_eq V c t) (cover1)

end

end Cert.KernelIdeal.RegionValue

end
-- ==== Proof.Region2.lean ====
/-
  The third dense region: the second layer's combine followed by the output projection.

  Each of the ten grid points reads 5000 consecutive rows of the aggregated neighbours and of the nodes' own rows, the
  layer's two whole weight matrices and bias row, and the whole output matrix and output bias row; it forms the layer
  combine on its block and leaves in its 5000 rows of the output (combined row · output column + output bias entry).
  Read entry by entry, and the ten row blocks put side by side, the output array is the output projection of the layer
  combine of the specification applied to the seven arrays the region found.
-/
import proofs.«129307_j3298534884298_2_alg».proof.Proof.Gen.KernelIdeal.Frame
import proofs.«129307_j3298534884298_2_alg».proof.Proof.Spec
import proofs.«129307_j3298534884298_2_alg».proof.Proof.RegionLib
import Idealize.ShloMosaic.Lib.Pipeline.Value

noncomputable section

open scoped BigOperators

namespace Cert.KernelIdeal.RegionValue

open Cert.KernelIdeal Cert.KernelIdeal.Gen Idealize.ShloMosaic Idealize.ShloMosaic.ValueIdx Idealize.ShloMosaic.TcCoe Idealize.SL.Sem
open Idealize.ShloMosaic.Pipeline (Dat)

/-- One entry of what a grid point computes: row `r` of the layer combine on its block against column `o` of the output
    matrix, plus the output bias at `o` (the narrowing of the combined rows keeps every value). -/
theorem k2_pay1_apply (a : Vec Ideal S5000x128 .f32) (x : Vec Ideal S5000x128 .bf16) (Wl Wr : Vec Ideal S128x128 .f32)
    (bl : Vec Ideal S1x128 .f32) (Wo : Vec Ideal S128x3 .f32) (bo : Vec Ideal S1x3 .f32) (r : Fin 5000) (o : Fin 3) :
    k2_pay1 (F := Ideal) a x Wl Wr bl Wo bo (ix2 r o)
      = (∑ k : Fin 128, combineBlock a x Wl Wr bl (ix2 r k) * Wo (ix2 k o)) + bo (ix2 0 o) := by
  have e : k2_pay1 (F := Ideal) a x Wl Wr bl Wo bo (ix2 r o)
      = matmul dot_S5000x128_S128x3_S5000x3_1_0_0_1_n_n none (truncf .bf16 (combineBlock a x Wl Wr bl) bitsLt_bf16_f32)
            (truncf .bf16 Wo bitsLt_bf16_f32) (constant (F := Ideal) S5000x3 .f32 0x00000000#32) (ix2 r o)
          + broadcastTo S5000x3 (shapeCast S1x3 bo shapeCasts_S1x3_S1x3) broadcasts_S1x3_S5000x3 (ix2 r o) := rfl
  rw [e, matmul3_apply, biasRow3_apply]
  rfl

section
variable (V : (c : Dev nD) → (b : Ref sig .tc) → Buf (Elt Ideal) ((c : Thread nD τ).loc b)) (c : Dev nD)

/-- The index maps over the grid: the aggregated rows, the nodes' own rows and the output move one row block per point;
    the three matrices and the two bias rows stay whole. -/
theorem index2_0 : ∀ t : Fin cfg2.N, win2_0.index t (0 : Fin 2) = t.val ∧ win2_0.index t (1 : Fin 2) = 0 :=
  (by decide +kernel : ∀ t : Fin grid2.N, _)
theorem index2_1 : ∀ t : Fin cfg2.N, win2_1.index t (0 : Fin 2) = t.val ∧ win2_1.index t (1 : Fin 2) = 0 :=
  (by decide +kernel : ∀ t : Fin grid2.N, _)
theorem index2_2 : ∀ t : Fin cfg2.N, win2_2.index t (0 : Fin 2) = 0 ∧ win2_2.index t (1 : Fin 2) = 0 :=
  (by decide +kernel : ∀ t : Fin grid2.N, _)
theorem index2_3 : ∀ t : Fin cfg2.N, win2_3.index t (0 : Fin 2) = 0 ∧ win2_3.index t (1 : Fin 2) = 0 :=
  (by decide +kernel : ∀ t : Fin grid2.N, _)
theorem index2_4 : ∀ t : Fin cfg2.N, win2_4.index t (0 : Fin 2) = 0 ∧ win2_4.index t (1 : Fin 2) = 0 :=
  (by decide +kernel : ∀ t : Fin grid2.N, _)
theorem index2_5 : ∀ t : Fin cfg2.N, win2_5.index t (0 : Fin 2) = 0 ∧ win2_5.index t (1 : Fin 2) = 0 :=
  (by decide +kernel : ∀ t : Fin grid2.N, _)
theorem index2_6 : ∀ t : Fin cfg2.N, win2_6.index t (0 : Fin 2) = 0 ∧ win2_6.index t (1 : Fin 2) = 0 :=
  (by decide +kernel : ∀ t : Fin grid2.N, _)
theorem index2_7 : ∀ t : Fin cfg2.N, win2_7.index t (0 : Fin 2) = t.val ∧ win2_7.index t (1 : Fin 2) = 0 :=
  (by decide +kernel : ∀ t : Fin grid2.N, _)

/-- An entry of the aggregated rows' block at point `t`: row `5000 t + r` of the array. -/
theorem iblk2_0_apply (t : Fin cfg2.N) (r : Fin 5000) (k : Fin 128) (n : Fin 50000) (hn : n.val = t.val * 5000 + r.val) :
    (iblk2 (F := Ideal) V c 0 t : S5000x128.Idx → EReal) (ix2 r k) = (V c main_v57 : S50000x128.Idx → EReal) (ix2 n k) := by
  obtain ⟨e0, e1⟩ := index2_0 t
  unfold iblk2
  rw [View.read_apply]
  show (V c main_v57 : S50000x128.Idx → EReal) _ = _
  refine congrArg _ (funext fun a => Fin.ext ?_)
  match a with
  | ⟨0, _⟩ => show win2_0.index t (0 : Fin 2) * 5000 + 1 * r.val = n.val; rw [e0, hn]; omega
  | ⟨1, _⟩ => show win2_0.index t (1 : Fin 2) * 128 + 1 * k.val = k.val; rw [e1]; omega

/-- An entry of the nodes' own rows' block at point `t`: row `5000 t + r` of the array. -/
theorem iblk2_1_apply (t : Fin cfg2.N) (r : Fin 5000) (k : Fin 128) (n : Fin 50000) (hn : n.val = t.val * 5000 + r.val) :
    (iblk2 (F := Ideal) V c 1 t : S5000x128.Idx → EReal) (ix2 r k) = (V c main_v36 : S50000x128.Idx → EReal) (ix2 n k) := by
  obtain ⟨e0, e1⟩ := index2_1 t
  unfold iblk2
  rw [View.read_apply]
  show (V c main_v36 : S50000x128.Idx → EReal) _ = _
  refine congrArg _ (funext fun a => Fin.ext ?_)
  match a with
  | ⟨0, _⟩ => show win2_1.index t (0 : Fin 2) * 5000 + 1 * r.val = n.val; rw [e0, hn]; omega
  | ⟨1, _⟩ => show win2_1.index t (1 : Fin 2) * 128 + 1 * k.val = k.val; rw [e1]; omega

/-- The left matrix's block at any point is the matrix. -/
theorem iblk2_2_apply (t : Fin cfg2.N) (k : Fin 128) (h : Fin 128) :
    (iblk2 (F := Ideal) V c 2 t : S128x128.Idx → EReal) (ix2 k h) = (V c main_arg8 : S128x128.Idx → EReal) (ix2 k h) := by
  obtain ⟨e0, e1⟩ := index2_2 t
  unfold iblk2
  rw [View.read_apply]
  show (V c main_arg8 : S128x128.Idx → EReal) _ = _
  refine congrArg _ (funext fun a => Fin.ext ?_)
  match a with
  | ⟨0, _⟩ => show win2_2.index t (0 : Fin 2) * 128 + 1 * k.val = k.val; rw [e0]; omega
  | ⟨1, _⟩ => show win2_2.index t (1 : Fin 2) * 128 + 1 * h.val = h.val; rw [e1]; omega

/-- The layer's bias row's block at any point is the bias row. -/
theorem iblk2_3_apply (t : Fin cfg2.N) (k : Fin 1) (h : Fin 128) :
    (iblk2 (F := Ideal) V c 3 t : S1x128.Idx → EReal) (ix2 k h) = (V c main_v58 : S1x128.Idx → EReal) (ix2 k h) := by
  obtain ⟨e0, e1⟩ := index2_3 t
  unfold iblk2
  rw [View.read_apply]
  show (V c main_v58 : S1x128.Idx → EReal) _ = _
  refine congrArg _ (funext fun a => Fin.ext ?_)
  match a with
  | ⟨0, _⟩ => show win2_3.index t (0 : Fin 2) * 1 + 1 * k.val = k.val; rw [e0]; omega
  | ⟨1, _⟩ => show win2_3.index t (1 : Fin 2) * 128 + 1 * h.val = h.val; rw [e1]; omega

/-- The right matrix's block at any point is the matrix. -/
theorem iblk2_4_apply (t : Fin cfg2.N) (k : Fin 128) (h : Fin 128) :
    (iblk2 (F := Ideal) V c 4 t : S128x128.Idx → EReal) (ix2 k h) = (V c main_arg10 : S128x128.Idx → EReal) (ix2 k h) := by
  obtain ⟨e0, e1⟩ := index2_4 t
  unfold iblk2
  rw [View.read_apply]
  show (V c main_arg10 : S128x128.Idx → EReal) _ = _
  refine congrArg _ (funext fun a => Fin.ext ?_)
  match a with
  | ⟨0, _⟩ => show win2_4.index t (0 : Fin 2) * 128 + 1 * k.val = k.val; rw [e0]; omega
  | ⟨1, _⟩ => show win2_4.index t (1 : Fin 2) * 128 + 1 * h.val = h.val; rw [e1]; omega

/-- The output matrix's block at any point is the matrix. -/
theorem iblk2_5_apply (t : Fin cfg2.N) (k : Fin 128) (h : Fin 3) :
    (iblk2 (F := Ideal) V c 5 t : S128x3.Idx → EReal) (ix2 k h) = (V c main_arg11 : S128x3.Idx → EReal) (ix2 k h) := by
  obtain ⟨e0, e1⟩ := index2_5 t
  unfold iblk2
  rw [View.read_apply]
  show (V c main_arg11 : S128x3.Idx → EReal) _ = _
  refine congrArg _ (funext fun a => Fin.ext ?_)
  match a with
  | ⟨0, _⟩ => show win2_5.index t (0 : Fin 2) * 128 + 1 * k.val = k.val; rw [e0]; omega
  | ⟨1, _⟩ => show win2_5.index t (1 : Fin 2) * 3 + 1 * h.val = h.val; rw [e1]; omega

/-- The output bias row's block at any point is the bias row. -/
theorem iblk2_6_apply (t : Fin cfg2.N) (k : Fin 1) (h : Fin 3) :
    (iblk2 (F := Ideal) V c 6 t : S1x3.Idx → EReal) (ix2 k h) = (V c main_v59 : S1x3.Idx → EReal) (ix2 k h) := by
  obtain ⟨e0, e1⟩ := index2_6 t
  unfold iblk2
  rw [View.read_apply]
  show (V c main_v59 : S1x3.Idx → EReal) _ = _
  refine congrArg _ (funext fun a => Fin.ext ?_)
  match a with
  | ⟨0, _⟩ => show win2_6.index t (0 : Fin 2) * 1 + 1 * k.val = k.val; rw [e0]; omega
  | ⟨1, _⟩ => show win2_6.index t (1 : Fin 2) * 3 + 1 * h.val = h.val; rw [e1]; omega

/-- What point `t` writes back is rows `5000 t … 5000 t + 4999` of the output projection of the layer combine of the
    arrays the region found. -/
theorem flushed2_eq (t : Fin cfg2.N) :
    (dat2 (F := Ideal) V c).flushed 7 t = ((cfg2.win 7).blk t).view.read (Elt Ideal)
      (Cert.Sage.outp (Cert.Sage.sage (V c main_v57) (V c main_v36) (V c main_arg8) (fun j => V c main_v58 (ix2 0 (j 0))) (V c main_arg10))
        (V c main_arg11) (fun j => V c main_v59 (ix2 0 (j 0)))) := by
  show (cfg2.win 7).cut (grid2.coords t) ((dat2 (F := Ideal) V c).after 7 t) = _
  rw [after2_7]
  unfold out2_7
  rw [View.canon_unit_zero zeros2]
  simp only [View.ld_unit_zero (S := S5000x128) zeros2, View.ld_unit_zero (S := S128x128) zeros2,
    View.ld_unit_zero (S := S1x128) zeros2, View.ld_unit_zero (S := S128x3) zeros2, View.ld_unit_zero (S := S1x3) zeros2]
  refine funext fun (j : S5000x3.Idx) => ?_
  obtain ⟨r, o, rfl⟩ : ∃ (r : Fin 5000) (o : Fin 3), j = ix2 r o := ⟨j 0, j 1, eq_ix2 j⟩
  have hN : cfg2.N = 10 := N_2
  have ht : t.val < 10 := hN ▸ t.isLt
  obtain ⟨e0, e1⟩ := index2_7 t
  have hemb : ((cfg2.win 7).blk t).view.emb (ix2 r o)
      = (ix2 (⟨t.val * 5000 + r.val, by have := r.isLt; omega⟩ : Fin 50000) o : S50000x3.Idx) := by
    refine funext fun a => Fin.ext ?_
    match a with
    | ⟨0, _⟩ => show win2_7.index t (0 : Fin 2) * 5000 + 1 * r.val = t.val * 5000 + r.val; rw [e0]; omega
    | ⟨1, _⟩ => show win2_7.index t (1 : Fin 2) * 3 + 1 * o.val = o.val; rw [e1]; omega
  show k2_pay1 (F := Ideal) (iblk2 V c 0 t) (iblk2 V c 1 t) (iblk2 V c 2 t) (iblk2 V c 4 t) (iblk2 V c 3 t) (iblk2 V c 5 t) (iblk2 V c 6 t) (ix2 r o)
    = Cert.Sage.outp (Cert.Sage.sage (V c main_v57) (V c main_v36) (V c main_arg8) (fun j => V c main_v58 (ix2 0 (j 0))) (V c main_arg10))
        (V c main_arg11) (fun j => V c main_v59 (ix2 0 (j 0))) (((cfg2.win 7).blk t).view.emb (ix2 r o))
  refine (k2_pay1_apply (iblk2 V c 0 t) (iblk2 V c 1 t) (iblk2 V c 2 t) (iblk2 V c 4 t) (iblk2 V c 3 t) (iblk2 V c 5 t) (iblk2 V c 6 t) r o).trans ?_
  rw [hemb, Cert.Sage.outp_ix2]
  unfold Cert.Sage.outpAt
  refine congrArg₂ (· + ·) (Finset.sum_congr rfl fun k _ => congrArg₂ (· * ·) ?_ ?_) ?_
  · refine (combineBlock_apply (iblk2 V c 0 t) (iblk2 V c 1 t) (iblk2 V c 2 t) (iblk2 V c 4 t) (iblk2 V c 3 t) r k).trans ?_
    rw [Cert.Sage.sage_ix2]
    exact combine_row_eq (iblk2 V c 0 t) (iblk2 V c 1 t) (iblk2 V c 2 t) (iblk2 V c 4 t) (iblk2 V c 3 t)
      (V c main_v57) (V c main_v36) (V c main_arg8) (fun j => V c main_v58 (ix2 0 (j 0))) (V c main_arg10) r _ k
      (fun k' => iblk2_0_apply V c t r k' _ rfl) (fun k' => iblk2_1_apply V c t r k' _ rfl)
      (fun k' => iblk2_2_apply V c t k' k) (fun k' => iblk2_4_apply V c t k' k) (iblk2_3_apply V c t 0 k)
  · exact iblk2_5_apply V c t k o
  · exact iblk2_6_apply V c t 0 o

/-- An index of the output array is in point `t`'s block iff each coordinate is in the block's range on its axis. -/
theorem mem_blk2 (t : Fin cfg2.N) (i : S50000x3.Idx) :
    i ∈ ((cfg2.win 7).blk t).view.set ↔ ∀ a : Fin 2, win2_7.index t a * S5000x3.size a ≤ (i a).val
      ∧ (i a).val < win2_7.index t a * S5000x3.size a + S5000x3.size a := by
  show i ∈ ((View.whole main_v60).slice (win2_7.rect t)).set ↔ _
  rw [View.set_slice_whole, Rect.mem_set_unit]
  exact Iff.rfl

/-- Every row of the output is in the block of the point numbered by the row over 5000. -/
theorem cover2 (i : S50000x3.Idx) :
    ∃ t : Fin cfg2.N, (cfg2.win 7).flush t = true ∧ i ∈ ((cfg2.win 7).blk t).view.set := by
  have hi0 : (i 0).val < 50000 := (i 0).isLt
  have hi1 : (i 1).val < 3 := (i 1).isLt
  have hN : cfg2.N = 10 := N_2
  refine ⟨⟨(i 0).val / 5000, by rw [hN]; omega⟩, flush2_7 _, ?_⟩
  rw [mem_blk2]
  obtain ⟨e0, e1⟩ := index2_7 ⟨(i 0).val / 5000, by rw [hN]; omega⟩
  intro a
  match a with
  | ⟨0, _⟩ =>
    show win2_7.index _ (0 : Fin 2) * 5000 ≤ (i 0).val ∧ (i 0).val < win2_7.index _ (0 : Fin 2) * 5000 + 5000
    rw [e0]; show (i 0).val / 5000 * 5000 ≤ (i 0).val ∧ (i 0).val < (i 0).val / 5000 * 5000 + 5000; omega
  | ⟨1, _⟩ =>
    show win2_7.index _ (1 : Fin 2) * 3 ≤ (i 1).val ∧ (i 1).val < win2_7.index _ (1 : Fin 2) * 3 + 3
    rw [e1]; omega

/-- The output array of the third region, whole: the output projection of the layer combine of the arrays the region
    found. -/
theorem final2 : (dat2 (F := Ideal) V c).arrAt 7 cfg2.N
    = Cert.Sage.outp (Cert.Sage.sage (V c main_v57) (V c main_v36) (V c main_arg8) (fun j => V c main_v58 (ix2 0 (j 0))) (V c main_arg10))
        (V c main_arg11) (fun j => V c main_v59 (ix2 0 (j 0))) :=
  (dat2 (F := Ideal) V c).arrAt_eq_of_cover 7 _ (fun t _ => flushed2_eq V c t) (cover2)

end

end Cert.KernelIdeal.RegionValue

end
-- ==== Proof.KBias.lean ====
/-
  A bias vector of 128 (or 3) entries reshaped to a one-row matrix, read back along its row, is the vector.
-/
import proofs.«129307_j3298534884298_2_alg».proof.Proof.Spec
import Idealize.ShloMosaic.Lib.Pipeline.Value

set_option maxRecDepth 16384

noncomputable section

namespace Cert.KernelIdeal.KValue

open Idealize.ShloMosaic Idealize.ShloMosaic.TcCoe Idealize.ShloMosaic.ValueIdx

/-- Entry `(0, k)` of the `[1, 128]` reshape of a vector of 128 entries is its entry `k`. -/
theorem bias_row (b : Cert.Sage.SB.Idx → EReal) (h : Cert.Sage.SB.ShapeCasts (⟨2, ![1, 128]⟩ : Shape)) :
    (fun j : Cert.Sage.SB.Idx => shapeCast (⟨2, ![1, 128]⟩ : Shape) b h (ix2 0 (j 0))) = b := by
  funext j
  refine (shapeCast_addUnit_apply ![128] b h _).trans (congrArg b ?_)
  funext a
  match a with
  | ⟨0, _⟩ => rfl

/-- Entry `(0, k)` of the `[1, 3]` reshape of a vector of 3 entries is its entry `k`. -/
theorem bias_row3 (b : Cert.Sage.SBo.Idx → EReal) (h : Cert.Sage.SBo.ShapeCasts (⟨2, ![1, 3]⟩ : Shape)) :
    (fun j : Cert.Sage.SBo.Idx => shapeCast (⟨2, ![1, 3]⟩ : Shape) b h (ix2 0 (j 0))) = b := by
  funext j
  refine (shapeCast_addUnit_apply ![3] b h _).trans (congrArg b ?_)
  funext a
  match a with
  | ⟨0, _⟩ => rfl

end Cert.KernelIdeal.KValue

end
-- ==== Proof.KHost0.lean ====
/-
  The first stretch of host operations, from any buffer contents `W`: it leaves the sources and the targets of the
  edge list, the reciprocal of `max (count) 1` per node and the input bias as a row in its result buffers, and
  the argument arrays it does not write as they were.
-/
import proofs.«129307_j3298534884298_2_alg».proof.Proof.Gen.KernelIdeal.Launch
import proofs.«129307_j3298534884298_2_alg».proof.Proof.Spec
import proofs.«129307_j3298534884298_2_alg».proof.Proof.KBias

set_option maxRecDepth 16384

noncomputable section

namespace Cert.KernelIdeal.KValue

open Idealize.ShloMosaic Idealize.ShloMosaic.TcCoe Idealize.ShloMosaic.ValueIdx
open Cert.KernelIdeal Cert.KernelIdeal.Gen

theorem h0_v1 (W : Valuation τ sig (Elt Ideal)) :
    StableHlo.after (hostOps0 (F := Ideal)) W (Proc.devRef .tc main_v1) = Cert.Sage.srcOf (W (Proc.devRef .tc main_arg1)) := by
  dsimp only [hostOps0]
  after_results_simp
  rfl

theorem h0_v3 (W : Valuation τ sig (Elt Ideal)) :
    StableHlo.after (hostOps0 (F := Ideal)) W (Proc.devRef .tc main_v3) = Cert.Sage.dstOf (W (Proc.devRef .tc main_arg1)) := by
  dsimp only [hostOps0]
  after_results_simp
  rfl

theorem h0_v11 (W : Valuation τ sig (Elt Ideal)) :
    StableHlo.after (hostOps0 (F := Ideal)) W (Proc.devRef .tc main_v11)
      = Cert.Sage.cinv (Cert.Sage.dstOf (W (Proc.devRef .tc main_arg1))) := by
  dsimp only [hostOps0]
  after_results_simp
  rfl

theorem h0_v12_cast (W : Valuation τ sig (Elt Ideal)) :
    StableHlo.after (hostOps0 (F := Ideal)) W (Proc.devRef .tc main_v12)
      = shapeCast S1x128 (W (Proc.devRef .tc main_arg4)) shapeCasts_S128_S1x128 := by
  dsimp only [hostOps0]
  after_results_simp
  rfl

/-- The reshaped bias, read along its row, is the bias argument. -/
theorem h0_v12 (W : Valuation τ sig (Elt Ideal)) :
    (fun j : Cert.Sage.SB.Idx => StableHlo.after (hostOps0 (F := Ideal)) W (Proc.devRef .tc main_v12) (ix2 0 (j 0)))
      = W (Proc.devRef .tc main_arg4) :=
  (congrArg (fun (f : S1x128.Idx → EReal) => fun j : Cert.Sage.SB.Idx => f (ix2 0 (j 0))) (h0_v12_cast W)).trans
    (bias_row _ _)

theorem h0_keep_arg0 (W : Valuation τ sig (Elt Ideal)) :
    StableHlo.after (hostOps0 (F := Ideal)) W (Proc.devRef .tc main_arg0) = W (Proc.devRef .tc main_arg0) := by
  dsimp only [hostOps0]
  after_results_simp

theorem h0_keep_arg3 (W : Valuation τ sig (Elt Ideal)) :
    StableHlo.after (hostOps0 (F := Ideal)) W (Proc.devRef .tc main_arg3) = W (Proc.devRef .tc main_arg3) := by
  dsimp only [hostOps0]
  after_results_simp

theorem h0_keep_arg5 (W : Valuation τ sig (Elt Ideal)) :
    StableHlo.after (hostOps0 (F := Ideal)) W (Proc.devRef .tc main_arg5) = W (Proc.devRef .tc main_arg5) := by
  dsimp only [hostOps0]
  after_results_simp

theorem h0_keep_arg6 (W : Valuation τ sig (Elt Ideal)) :
    StableHlo.after (hostOps0 (F := Ideal)) W (Proc.devRef .tc main_arg6) = W (Proc.devRef .tc main_arg6) := by
  dsimp only [hostOps0]
  after_results_simp

theorem h0_keep_arg7 (W : Valuation τ sig (Elt Ideal)) :
    StableHlo.after (hostOps0 (F := Ideal)) W (Proc.devRef .tc main_arg7) = W (Proc.devRef .tc main_arg7) := by
  dsimp only [hostOps0]
  after_results_simp

theorem h0_keep_arg8 (W : Valuation τ sig (Elt Ideal)) :
    StableHlo.after (hostOps0 (F := Ideal)) W (Proc.devRef .tc main_arg8) = W (Proc.devRef .tc main_arg8) := by
  dsimp only [hostOps0]
  after_results_simp

theorem h0_keep_arg9 (W : Valuation τ sig (Elt Ideal)) :
    StableHlo.after (hostOps0 (F := Ideal)) W (Proc.devRef .tc main_arg9) = W (Proc.devRef .tc main_arg9) := by
  dsimp only [hostOps0]
  after_results_simp

theorem h0_keep_arg10 (W : Valuation τ sig (Elt Ideal)) :
    StableHlo.after (hostOps0 (F := Ideal)) W (Proc.devRef .tc main_arg10) = W (Proc.devRef .tc main_arg10) := by
  dsimp only [hostOps0]
  after_results_simp

theorem h0_keep_arg11 (W : Valuation τ sig (Elt Ideal)) :
    StableHlo.after (hostOps0 (F := Ideal)) W (Proc.devRef .tc main_arg11) = W (Proc.devRef .tc main_arg11) := by
  dsimp only [hostOps0]
  after_results_simp

theorem h0_keep_arg12 (W : Valuation τ sig (Elt Ideal)) :
    StableHlo.after (hostOps0 (F := Ideal)) W (Proc.devRef .tc main_arg12) = W (Proc.devRef .tc main_arg12) := by
  dsimp only [hostOps0]
  after_results_simp

end Cert.KernelIdeal.KValue

end
-- ==== Proof.KHost1.lean ====
/-
  The second stretch of host operations, from any buffer contents `W` whose reciprocal buffer holds the reciprocal of
  `max (count) 1` at the targets it holds: it leaves the aggregation of the first stage's rows, scaled edge by edge,
  and the first layer's bias as a row; the buffers it does not write stay as they were.
-/
import proofs.«129307_j3298534884298_2_alg».proof.Proof.Gen.KernelIdeal.Launch
import proofs.«129307_j3298534884298_2_alg».proof.Proof.Spec
import proofs.«129307_j3298534884298_2_alg».proof.Proof.KBias

set_option maxRecDepth 16384

noncomputable section

namespace Cert.KernelIdeal.KValue

open Idealize.ShloMosaic Idealize.ShloMosaic.TcCoe Idealize.ShloMosaic.ValueIdx
open Cert.KernelIdeal Cert.KernelIdeal.Gen

set_option maxHeartbeats 2000000 in
/-- The stretch's accumulating scatter is the aggregation scaled edge by edge, of the previous stage's rows. -/
theorem h1_v34 (W : Valuation τ sig (Elt Ideal))
    (h11 : W (Proc.devRef .tc main_v11) = Cert.Sage.cinv (W (Proc.devRef .tc main_v3))) :
    StableHlo.after (hostOps1 (F := Ideal)) W (Proc.devRef .tc main_v34)
      = Cert.Sage.aggK (W (Proc.devRef .tc main_v13)) (W (Proc.devRef .tc main_v1)) (W (Proc.devRef .tc main_v3)) := by
  dsimp only [hostOps1]
  after_results_simp
  rw [h11]
  rfl

theorem h1_v35_cast (W : Valuation τ sig (Elt Ideal)) :
    StableHlo.after (hostOps1 (F := Ideal)) W (Proc.devRef .tc main_v35)
      = shapeCast S1x128 (W (Proc.devRef .tc main_arg6)) shapeCasts_S128_S1x128 := by
  dsimp only [hostOps1]
  after_results_simp
  rfl

/-- The reshaped bias, read along its row, is the bias argument. -/
theorem h1_v35 (W : Valuation τ sig (Elt Ideal)) :
    (fun j : Cert.Sage.SB.Idx => StableHlo.after (hostOps1 (F := Ideal)) W (Proc.devRef .tc main_v35) (ix2 0 (j 0)))
      = W (Proc.devRef .tc main_arg6) :=
  (congrArg (fun (f : S1x128.Idx → EReal) => fun j : Cert.Sage.SB.Idx => f (ix2 0 (j 0))) (h1_v35_cast W)).trans
    (bias_row _ _)

theorem h1_keep_v13 (W : Valuation τ sig (Elt Ideal)) :
    StableHlo.after (hostOps1 (F := Ideal)) W (Proc.devRef .tc main_v13) = W (Proc.devRef .tc main_v13) := by
  dsimp only [hostOps1]
  after_results_simp

theorem h1_keep_v1 (W : Valuation τ sig (Elt Ideal)) :
    StableHlo.after (hostOps1 (F := Ideal)) W (Proc.devRef .tc main_v1) = W (Proc.devRef .tc main_v1) := by
  dsimp only [hostOps1]
  after_results_simp

theorem h1_keep_v3 (W : Valuation τ sig (Elt Ideal)) :
    StableHlo.after (hostOps1 (F := Ideal)) W (Proc.devRef .tc main_v3) = W (Proc.devRef .tc main_v3) := by
  dsimp only [hostOps1]
  after_results_simp

theorem h1_keep_v11 (W : Valuation τ sig (Elt Ideal)) :
    StableHlo.after (hostOps1 (F := Ideal)) W (Proc.devRef .tc main_v11) = W (Proc.devRef .tc main_v11) := by
  dsimp only [hostOps1]
  after_results_simp

theorem h1_keep_arg5 (W : Valuation τ sig (Elt Ideal)) :
    StableHlo.after (hostOps1 (F := Ideal)) W (Proc.devRef .tc main_arg5) = W (Proc.devRef .tc main_arg5) := by
  dsimp only [hostOps1]
  after_results_simp

theorem h1_keep_arg7 (W : Valuation τ sig (Elt Ideal)) :
    StableHlo.after (hostOps1 (F := Ideal)) W (Proc.devRef .tc main_arg7) = W (Proc.devRef .tc main_arg7) := by
  dsimp only [hostOps1]
  after_results_simp

theorem h1_keep_arg8 (W : Valuation τ sig (Elt Ideal)) :
    StableHlo.after (hostOps1 (F := Ideal)) W (Proc.devRef .tc main_arg8) = W (Proc.devRef .tc main_arg8) := by
  dsimp only [hostOps1]
  after_results_simp

theorem h1_keep_arg9 (W : Valuation τ sig (Elt Ideal)) :
    StableHlo.after (hostOps1 (F := Ideal)) W (Proc.devRef .tc main_arg9) = W (Proc.devRef .tc main_arg9) := by
  dsimp only [hostOps1]
  after_results_simp

theorem h1_keep_arg10 (W : Valuation τ sig (Elt Ideal)) :
    StableHlo.after (hostOps1 (F := Ideal)) W (Proc.devRef .tc main_arg10) = W (Proc.devRef .tc main_arg10) := by
  dsimp only [hostOps1]
  after_results_simp

theorem h1_keep_arg11 (W : Valuation τ sig (Elt Ideal)) :
    StableHlo.after (hostOps1 (F := Ideal)) W (Proc.devRef .tc main_arg11) = W (Proc.devRef .tc main_arg11) := by
  dsimp only [hostOps1]
  after_results_simp

theorem h1_keep_arg12 (W : Valuation τ sig (Elt Ideal)) :
    StableHlo.after (hostOps1 (F := Ideal)) W (Proc.devRef .tc main_arg12) = W (Proc.devRef .tc main_arg12) := by
  dsimp only [hostOps1]
  after_results_simp

end Cert.KernelIdeal.KValue

end
-- ==== Proof.KHost2.lean ====
/-
  The third stretch of host operations, from any buffer contents `W` whose reciprocal buffer holds the reciprocal of
  `max (count) 1` at the targets it holds: it leaves the aggregation of the second stage's rows, scaled edge by edge,
  and the second layer's and the output's biases as rows; the buffers it does not write stay as they were.
-/
import proofs.«129307_j3298534884298_2_alg».proof.Proof.Gen.KernelIdeal.Launch
import proofs.«129307_j3298534884298_2_alg».proof.Proof.Spec
import proofs.«129307_j3298534884298_2_alg».proof.Proof.KBias

set_option maxRecDepth 16384

noncomputable section

namespace Cert.KernelIdeal.KValue

open Idealize.ShloMosaic Idealize.ShloMosaic.TcCoe Idealize.ShloMosaic.ValueIdx
open Cert.KernelIdeal Cert.KernelIdeal.Gen

set_option maxHeartbeats 2000000 in
/-- The stretch's accumulating scatter is the aggregation scaled edge by edge, of the previous stage's rows. -/
theorem h2_v57 (W : Valuation τ sig (Elt Ideal))
    (h11 : W (Proc.devRef .tc main_v11) = Cert.Sage.cinv (W (Proc.devRef .tc main_v3))) :
    StableHlo.after (hostOps2 (F := Ideal)) W (Proc.devRef .tc main_v57)
      = Cert.Sage.aggK (W (Proc.devRef .tc main_v36)) (W (Proc.devRef .tc main_v1)) (W (Proc.devRef .tc main_v3)) := by
  dsimp only [hostOps2]
  after_results_simp
  rw [h11]
  rfl

theorem h2_v58_cast (W : Valuation τ sig (Elt Ideal)) :
    StableHlo.after (hostOps2 (F := Ideal)) W (Proc.devRef .tc main_v58)
      = shapeCast S1x128 (W (Proc.devRef .tc main_arg9)) shapeCasts_S128_S1x128 := by
  dsimp only [hostOps2]
  after_results_simp
  rfl

/-- The reshaped bias, read along its row, is the bias argument. -/
theorem h2_v58 (W : Valuation τ sig (Elt Ideal)) :
    (fun j : Cert.Sage.SB.Idx => StableHlo.after (hostOps2 (F := Ideal)) W (Proc.devRef .tc main_v58) (ix2 0 (j 0)))
      = W (Proc.devRef .tc main_arg9) :=
  (congrArg (fun (f : S1x128.Idx → EReal) => fun j : Cert.Sage.SB.Idx => f (ix2 0 (j 0))) (h2_v58_cast W)).trans
    (bias_row _ _)

theorem h2_v59_cast (W : Valuation τ sig (Elt Ideal)) :
    StableHlo.after (hostOps2 (F := Ideal)) W (Proc.devRef .tc main_v59)
      = shapeCast S1x3 (W (Proc.devRef .tc main_arg12)) shapeCasts_S3_S1x3 := by
  dsimp only [hostOps2]
  after_results_simp
  rfl

/-- The reshaped bias, read along its row, is the bias argument. -/
theorem h2_v59 (W : Valuation τ sig (Elt Ideal)) :
    (fun j : Cert.Sage.SBo.Idx => StableHlo.after (hostOps2 (F := Ideal)) W (Proc.devRef .tc main_v59) (ix2 0 (j 0)))
      = W (Proc.devRef .tc main_arg12) :=
  (congrArg (fun (f : S1x3.Idx → EReal) => fun j : Cert.Sage.SBo.Idx => f (ix2 0 (j 0))) (h2_v59_cast W)).trans
    (bias_row3 _ _)

theorem h2_keep_v36 (W : Valuation τ sig (Elt Ideal)) :
    StableHlo.after (hostOps2 (F := Ideal)) W (Proc.devRef .tc main_v36) = W (Proc.devRef .tc main_v36) := by
  dsimp only [hostOps2]
  after_results_simp

theorem h2_keep_arg8 (W : Valuation τ sig (Elt Ideal)) :
    StableHlo.after (hostOps2 (F := Ideal)) W (Proc.devRef .tc main_arg8) = W (Proc.devRef .tc main_arg8) := by
  dsimp only [hostOps2]
  after_results_simp

theorem h2_keep_arg10 (W : Valuation τ sig (Elt Ideal)) :
    StableHlo.after (hostOps2 (F := Ideal)) W (Proc.devRef .tc main_arg10) = W (Proc.devRef .tc main_arg10) := by
  dsimp only [hostOps2]
  after_results_simp

theorem h2_keep_arg11 (W : Valuation τ sig (Elt Ideal)) :
    StableHlo.after (hostOps2 (F := Ideal)) W (Proc.devRef .tc main_arg11) = W (Proc.devRef .tc main_arg11) := by
  dsimp only [hostOps2]
  after_results_simp

end Cert.KernelIdeal.KValue

end
-- ==== Proof.KRun.lean ====
/-
  The kernel program's run with its result named: from any launch memory with zero counters, every weakly fair
  execution of @main on the TensorCores terminates without fault, and in every final state the result buffer holds
  what the fold of the program's segments leaves there (`Gen.W6`: three stretches of host operations and three
  regions, from the launch memory), while the thirteen argument arrays are as launched.
-/
import proofs.«129307_j3298534884298_2_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main: it terminates, nothing faulting, and every final state has the result buffer at the last
    boundary's contents and the argument arrays as launched. -/
theorem run_W6 : θ_run defs (onTc (τ := τ) (main (F := F))) ⟨m, fun _ => 0, ρ⟩ (fun r => ∀ c : Dev nD,
      r.2.mem ((c.tc : Thread nD τ).loc main_v60) = W6 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v60 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c)⟩)

end Cert.KernelIdeal.KValue

end
-- ==== Proof.KChain.lean ====
/-
  The kernel program computes the network with the aggregation scaled edge by edge. The buffer contents at the
  program's segment boundaries are a fold from the launch memory: a stretch of host operations rewrites its result
  buffers, a region rewrites its output array. Given each region's closed form at its entry contents (the input
  projection, the layer combine, the layer combine followed by the output projection), the result buffer at the
  last boundary is read back through the fold, stage by stage, down to the argument arrays of the launch memory.
-/
import proofs.«129307_j3298534884298_2_alg».proof.Proof.Gen.KernelIdeal.Frame
import proofs.«129307_j3298534884298_2_alg».proof.Proof.Spec
import proofs.«129307_j3298534884298_2_alg».proof.Proof.KHost0
import proofs.«129307_j3298534884298_2_alg».proof.Proof.KHost1
import proofs.«129307_j3298534884298_2_alg».proof.Proof.KHost2
import proofs.«129307_j3298534884298_2_alg».proof.Proof.KRun

set_option maxRecDepth 16384

noncomputable section

namespace Cert.KernelIdeal.KValue

open Idealize.ShloMosaic Idealize.ShloMosaic.TcCoe Idealize.ShloMosaic.ValueIdx
open Idealize.SL.Sem
open Cert.KernelIdeal Cert.KernelIdeal.Gen

/-! ## The stages are functions of their operands -/

theorem proj_congr {x x' : Cert.Sage.SN.Idx → EReal} {W W' : Cert.Sage.SW.Idx → EReal} {b b' : Cert.Sage.SB.Idx → EReal}
    (hx : x = x') (hW : W = W') (hb : b = b') : Cert.Sage.proj x W b = Cert.Sage.proj x' W' b' := by
  subst hx hW hb; rfl

theorem sage_congr {a a' x x' : Cert.Sage.SN.Idx → EReal} {Wl Wl' Wr Wr' : Cert.Sage.SW.Idx → EReal}
    {bl bl' : Cert.Sage.SB.Idx → EReal} (ha : a = a') (hx : x = x') (hWl : Wl = Wl') (hbl : bl = bl') (hWr : Wr = Wr') :
    Cert.Sage.sage a x Wl bl Wr = Cert.Sage.sage a' x' Wl' bl' Wr' := by
  subst ha hx hWl hbl hWr; rfl

theorem outp_congr {y y' : Cert.Sage.SN.Idx → EReal} {Wo Wo' : Cert.Sage.SWo.Idx → EReal} {bo bo' : Cert.Sage.SBo.Idx → EReal}
    (hy : y = y') (hWo : Wo = Wo') (hbo : bo = bo') : Cert.Sage.outp y Wo bo = Cert.Sage.outp y' Wo' bo' := by
  subst hy hWo hbo; rfl

theorem aggK_congr {x x' : FVec Ideal Cert.Sage.SN .f32} {s s' d d' : IVec Cert.Sage.SE 32}
    (hx : x = x') (hs : s = s') (hd : d = d') : Cert.Sage.aggK x s d = Cert.Sage.aggK x' s' d' := by
  subst hx hs hd; rfl

/-- A run's postcondition may be weakened. -/
theorem post_mono {α : Type} (w : WPT α) {Q Q' : α → Prop} (h : ∀ a, Q a → Q' a) : w Q → w Q' :=
  OrdCont.mono w h

/-! ## The regions' closed forms, as the hypotheses the chain takes -/

/-- Region 0 leaves the input projection of its operands in its output array, whatever the entry contents. -/
abbrev Closed0 : Prop := ∀ (V : (c : Dev nD) → (b : Ref sig .tc) → Buf (Elt Ideal) ((c : Thread nD τ).loc b)) (c : Dev nD),
    (Gen.dat0 (F := Ideal) V c).arrAt 3 cfg0.N
      = Cert.Sage.proj (V c main_arg0) (V c main_arg3) (fun j => V c main_v12 (ix2 0 (j 0)))
/-- Region 1 leaves the layer combine of its operands in its output array, whatever the entry contents. -/
abbrev Closed1 : Prop := ∀ (V : (c : Dev nD) → (b : Ref sig .tc) → Buf (Elt Ideal) ((c : Thread nD τ).loc b)) (c : Dev nD),
    (Gen.dat1 (F := Ideal) V c).arrAt 5 cfg1.N
      = Cert.Sage.sage (V c main_v34) (V c main_v13) (V c main_arg5) (fun j => V c main_v35 (ix2 0 (j 0))) (V c main_arg7)
/-- Region 2 leaves the output projection of the layer combine of its operands in its output array, whatever the
    entry contents. -/
abbrev Closed2 : Prop := ∀ (V : (c : Dev nD) → (b : Ref sig .tc) → Buf (Elt Ideal) ((c : Thread nD τ).loc b)) (c : Dev nD),
    (Gen.dat2 (F := Ideal) V c).arrAt 7 cfg2.N
      = Cert.Sage.outp (Cert.Sage.sage (V c main_v57) (V c main_v36) (V c main_arg8) (fun j => V c main_v58 (ix2 0 (j 0))) (V c main_arg10))
          (V c main_arg11) (fun j => V c main_v59 (ix2 0 (j 0)))

variable (m : (ℓ : Loc nD τ sig) → Buf (Elt Ideal) ℓ) (ρ : Dev nD → PrngReg) (c : Dev nD)

/-! ## The stages of the network, of the launch memory's argument arrays -/

/-- The sources of the edges. -/
abbrev src : IVec Cert.Sage.SE 32 := Cert.Sage.srcOf (m ((c : Thread nD τ).loc main_arg1))
/-- The targets of the edges. -/
abbrev dst : IVec Cert.Sage.SE 32 := Cert.Sage.dstOf (m ((c : Thread nD τ).loc main_arg1))
/-- The input projection of the node features. -/
abbrev x0 : FVec Ideal Cert.Sage.SN .f32 := Cert.Sage.proj (m ((c : Thread nD τ).loc main_arg0)) (m ((c : Thread nD τ).loc main_arg3)) (m ((c : Thread nD τ).loc main_arg4))
/-- The first layer. -/
abbrev x1 : FVec Ideal Cert.Sage.SN .f32 :=
  Cert.Sage.sage (Cert.Sage.aggK (x0 m c) (src m c) (dst m c)) (x0 m c) (m ((c : Thread nD τ).loc main_arg5)) (m ((c : Thread nD τ).loc main_arg6)) (m ((c : Thread nD τ).loc main_arg7))
/-- The second layer. -/
abbrev x2 : FVec Ideal Cert.Sage.SN .f32 :=
  Cert.Sage.sage (Cert.Sage.aggK (x1 m c) (src m c) (dst m c)) (x1 m c) (m ((c : Thread nD τ).loc main_arg8)) (m ((c : Thread nD τ).loc main_arg9)) (m ((c : Thread nD τ).loc main_arg10))

/-! ## The edge list's rows and the reciprocal counts, carried from the first stretch to every later boundary -/

theorem W2_v1 : W2 m ρ c (Proc.devRef .tc main_v1) = src m c := ((W2_of_ne m ρ c main_v1 (by decide)).trans (h0_v1 (W0 m ρ c)))
theorem W2_v3 : W2 m ρ c (Proc.devRef .tc main_v3) = dst m c := ((W2_of_ne m ρ c main_v3 (by decide)).trans (h0_v3 (W0 m ρ c)))
theorem W2_v11 : W2 m ρ c (Proc.devRef .tc main_v11) = Cert.Sage.cinv (dst m c) := ((W2_of_ne m ρ c main_v11 (by decide)).trans (h0_v11 (W0 m ρ c)))
theorem W4_v1 : W4 m ρ c (Proc.devRef .tc main_v1) = src m c := ((W4_of_ne m ρ c main_v1 (by decide)).trans ((h1_keep_v1 (W2 m ρ c)).trans (W2_v1 m ρ c)))
theorem W4_v3 : W4 m ρ c (Proc.devRef .tc main_v3) = dst m c := ((W4_of_ne m ρ c main_v3 (by decide)).trans ((h1_keep_v3 (W2 m ρ c)).trans (W2_v3 m ρ c)))
theorem W4_v11 : W4 m ρ c (Proc.devRef .tc main_v11) = Cert.Sage.cinv (dst m c) := ((W4_of_ne m ρ c main_v11 (by decide)).trans ((h1_keep_v11 (W2 m ρ c)).trans (W2_v11 m ρ c)))

/-! ## Region 0: the input projection -/

section
variable (h0 : Closed0)
include h0

theorem W2_v13 : W2 m ρ c (Proc.devRef .tc main_v13) = x0 m c :=
  (W2_arr m ρ c 3).trans ((h0 (V1 m ρ) c).trans
    (proj_congr (h0_keep_arg0 (W0 m ρ c)) (h0_keep_arg3 (W0 m ρ c)) (h0_v12 (W0 m ρ c))))

/-! ## The second stretch and region 1: the first layer -/

theorem W3_v34 : W3 m ρ c (Proc.devRef .tc main_v34) = Cert.Sage.aggK (x0 m c) (src m c) (dst m c) :=
  (h1_v34 (W2 m ρ c) ((W2_v11 m ρ c).trans (congrArg Cert.Sage.cinv (W2_v3 m ρ c).symm))).trans
    (aggK_congr (W2_v13 m ρ c h0) (W2_v1 m ρ c) (W2_v3 m ρ c))

variable (h1 : Closed1)
include h1

theorem W4_v36 : W4 m ρ c (Proc.devRef .tc main_v36) = x1 m c :=
  (W4_arr m ρ c 5).trans ((h1 (V3 m ρ) c).trans
    (sage_congr (W3_v34 m ρ c h0) ((h1_keep_v13 (W2 m ρ c)).trans (W2_v13 m ρ c h0))
      ((h1_keep_arg5 (W2 m ρ c)).trans ((W2_of_ne m ρ c main_arg5 (by decide)).trans (h0_keep_arg5 (W0 m ρ c))))
      ((h1_v35 (W2 m ρ c)).trans ((W2_of_ne m ρ c main_arg6 (by decide)).trans (h0_keep_arg6 (W0 m ρ c))))
      ((h1_keep_arg7 (W2 m ρ c)).trans ((W2_of_ne m ρ c main_arg7 (by decide)).trans (h0_keep_arg7 (W0 m ρ c))))))

/-! ## The third stretch and region 2: the second layer and the output projection -/

theorem W5_v57 : W5 m ρ c (Proc.devRef .tc main_v57) = Cert.Sage.aggK (x1 m c) (src m c) (dst m c) :=
  (h2_v57 (W4 m ρ c) ((W4_v11 m ρ c).trans (congrArg Cert.Sage.cinv (W4_v3 m ρ c).symm))).trans
    (aggK_congr (W4_v36 m ρ c h0 h1) (W4_v1 m ρ c) (W4_v3 m ρ c))

variable (h2 : Closed2)
include h2

theorem W6_v60 : W6 m ρ c (Proc.devRef .tc main_v60) = Cert.Sage.outp (x2 m c) (m ((c : Thread nD τ).loc main_arg11)) (m ((c : Thread nD τ).loc main_arg12)) :=
  (W6_arr m ρ c 7).trans ((h2 (V5 m ρ) c).trans
    (outp_congr
      (sage_congr (W5_v57 m ρ c h0 h1) ((h2_keep_v36 (W4 m ρ c)).trans (W4_v36 m ρ c h0 h1))
        ((h2_keep_arg8 (W4 m ρ c)).trans ((W4_of_ne m ρ c main_arg8 (by decide)).trans ((h1_keep_arg8 (W2 m ρ c)).trans ((W2_of_ne m ρ c main_arg8 (by decide)).trans (h0_keep_arg8 (W0 m ρ c))))))
        ((h2_v58 (W4 m ρ c)).trans ((W4_of_ne m ρ c main_arg9 (by decide)).trans ((h1_keep_arg9 (W2 m ρ c)).trans ((W2_of_ne m ρ c main_arg9 (by decide)).trans (h0_keep_arg9 (W0 m ρ c))))))
        ((h2_keep_arg10 (W4 m ρ c)).trans ((W4_of_ne m ρ c main_arg10 (by decide)).trans ((h1_keep_arg10 (W2 m ρ c)).trans ((W2_of_ne m ρ c main_arg10 (by decide)).trans (h0_keep_arg10 (W0 m ρ c)))))))
      ((h2_keep_arg11 (W4 m ρ c)).trans ((W4_of_ne m ρ c main_arg11 (by decide)).trans ((h1_keep_arg11 (W2 m ρ c)).trans ((W2_of_ne m ρ c main_arg11 (by decide)).trans (h0_keep_arg11 (W0 m ρ c))))))
      ((h2_v59 (W4 m ρ c)).trans ((W4_of_ne m ρ c main_arg12 (by decide)).trans ((h1_keep_arg12 (W2 m ρ c)).trans ((W2_of_ne m ρ c main_arg12 (by decide)).trans (h0_keep_arg12 (W0 m ρ c))))))))

/-- The result buffer at the last boundary holds the network's output, of the launch memory's argument arrays. -/
theorem chain : W6 m ρ c (Proc.devRef .tc main_v60)
    = Cert.Sage.kerOut (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  (W6_v60 m ρ c h0 h1 h2).trans rfl

end

/-! ## The run, with the result named -/

/-- From any launch memory with zero counters the kernel program terminates, nothing faulting, and in every final
    state the result buffer holds the network's output with the aggregation scaled edge by edge, of the launch
    memory's argument arrays, which end as launched — given each region's closed form at its entry contents. -/
theorem run
    (h0 : ∀ (V : (c : Dev nD) → (b : Ref sig .tc) → Buf (Elt Ideal) ((c : Thread nD τ).loc b)) (c : Dev nD),
      (Gen.dat0 (F := Ideal) V c).arrAt 3 cfg0.N
        = Cert.Sage.proj (V c main_arg0) (V c main_arg3) (fun j => V c main_v12 (ix2 0 (j 0))))
    (h1 : ∀ (V : (c : Dev nD) → (b : Ref sig .tc) → Buf (Elt Ideal) ((c : Thread nD τ).loc b)) (c : Dev nD),
      (Gen.dat1 (F := Ideal) V c).arrAt 5 cfg1.N
        = Cert.Sage.sage (V c main_v34) (V c main_v13) (V c main_arg5) (fun j => V c main_v35 (ix2 0 (j 0))) (V c main_arg7))
    (h2 : ∀ (V : (c : Dev nD) → (b : Ref sig .tc) → Buf (Elt Ideal) ((c : Thread nD τ).loc b)) (c : Dev nD),
      (Gen.dat2 (F := Ideal) V c).arrAt 7 cfg2.N
        = Cert.Sage.outp (Cert.Sage.sage (V c main_v57) (V c main_v36) (V c main_arg8) (fun j => V c main_v58 (ix2 0 (j 0))) (V c main_arg10))
            (V c main_arg11) (fun j => V c main_v59 (ix2 0 (j 0))))
    (m : (ℓ : Loc nD τ sig) → Buf (Elt Ideal) ℓ) (ρ : Dev nD → PrngReg) :
    θ_run (Cert.KernelIdeal.defs (F := Ideal)) (onTc (τ := τ) (Cert.KernelIdeal.main (F := Ideal))) ⟨m, fun _ => 0, ρ⟩
      (fun r => ∀ c : Dev nD,
        r.2.mem ((c.tc : Thread nD τ).loc main_v60)
            = Cert.Sage.kerOut (m ((c.tc : Thread nD τ).loc main_arg0)) (m ((c.tc : Thread nD τ).loc main_arg1))
                (m ((c.tc : Thread nD τ).loc main_arg3)) (m ((c.tc : Thread nD τ).loc main_arg4)) (m ((c.tc : Thread nD τ).loc main_arg5))
                (m ((c.tc : Thread nD τ).loc main_arg6)) (m ((c.tc : Thread nD τ).loc main_arg7)) (m ((c.tc : Thread nD τ).loc main_arg8))
                (m ((c.tc : Thread nD τ).loc main_arg9)) (m ((c.tc : Thread nD τ).loc main_arg10)) (m ((c.tc : Thread nD τ).loc main_arg11))
                (m ((c.tc : Thread nD τ).loc main_arg12))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)
          ∧ r.2.mem ((c.tc : Thread nD τ).loc main_arg11) = m ((c.tc : Thread nD τ).loc main_arg11)
          ∧ r.2.mem ((c.tc : Thread nD τ).loc main_arg12) = m ((c.tc : Thread nD τ).loc main_arg12)) :=
  by
    refine post_mono _ ?_ (run_W6 m ρ)
    intro r hr c
    exact ⟨(hr c).1.trans (chain m ρ c h0 h1 h2), (hr c).2⟩

end Cert.KernelIdeal.KValue

end
-- ==== Proof.RefOps.lean ====
/-
  The reference program's eighty-two host operations in order, the rectifier's seven (the zero, its broadcast,
  the comparison, the slope's copy and broadcast, the product, the selection) listed at the place of its call
  over the call's own buffers.
-/
import proofs.«129307_j3298534884298_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first sixty-six operations: the edge list's two rows, the input projection with the rectifier's seven
    operations in the place of its call, the first aggregation and layer, the second aggregation's sums. -/
abbrev ops0 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v5 (broadcastInDim S1x128 ![1] bcast_S128_S1x128_1 : (⟨S128, .f32⟩ : BufTy).Contents (Elt F) → (⟨S1x128, .f32⟩ : BufTy).Contents (Elt F)),
    unary main_v5 main_v6 (broadcastInDim S50000x128 ![0, 1] bcast_S1x128_S50000x128_0_1 : (⟨S1x128, .f32⟩ : BufTy).Contents (Elt F) → (⟨S50000x128, .f32⟩ : BufTy).Contents (Elt F)),
    binary main_v4 main_v6 main_v7 (addf : (⟨S50000x128, .f32⟩ : BufTy).Contents (Elt F) → (⟨S50000x128, .f32⟩ : BufTy).Contents (Elt F) → (⟨S50000x128, .f32⟩ : BufTy).Contents (Elt F)),
    nullary main_cst (constant S_ .f32 0x3C23D70A#32),
    TRef.nullary main_call0.cst (constant S_ .f32 0x00000000#32),
    TRef.unary main_call0.cst main_call0.v0 (broadcastInDim S50000x128 ![] bcast_S_S50000x128),
    TRef.binary (.of main_v7) main_call0.v0 main_call0.v1 (cmpf .oge),
    TRef.unary (.of main_cst) main_call0.v2 id,
    TRef.unary main_call0.v2 main_call0.v3 (broadcastInDim S50000x128 ![] bcast_S_S50000x128),
    TRef.binary main_call0.v3 (.of main_v7) main_call0.v4 mulf,
    TRef.ternary main_call0.v1 (.of main_v7) main_call0.v4 main_call0.call0.v0 select,
    nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_v1 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v11 (broadcastInDim S1600000 ![] bcast_S_S1600000 : (⟨S_, .i32⟩ : BufTy).Contents (Elt F) → (⟨S1600000, .i32⟩ : BufTy).Contents (Elt F)),
    binary main_v1 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_v1 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_v8 main_v14 main_v15 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst_1 (constant S_ .f32 0x00000000#32),
    unary main_cst_1 main_v16 (broadcastInDim S50000x128 ![] bcast_S_S50000x128 : (⟨S_, .f32⟩ : BufTy).Contents (Elt F) → (⟨S50000x128, .f32⟩ : BufTy).Contents (Elt F)),
    unary main_v3 main_v17 (broadcastInDim S1600000x1 ![0] bcast_S1600000_S1600000x1_0 : (⟨S1600000, .i32⟩ : BufTy).Contents (Elt F) → (⟨S1600000x1, .i32⟩ : BufTy).Contents (Elt F)),
    ternary main_v16 main_v17 main_v15 main_v18 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_2 (constant S_ .f32 0x3F800000#32),
    unary main_cst_2 main_v19 (broadcastInDim S1600000 ![] bcast_S_S1600000 : (⟨S_, .f32⟩ : BufTy).Contents (Elt F) → (⟨S1600000, .f32⟩ : BufTy).Contents (Elt F)),
    nullary main_cst_3 (constant S_ .f32 0x00000000#32),
    unary main_cst_3 main_v20 (broadcastInDim S50000 ![] bcast_S_S50000 : (⟨S_, .f32⟩ : BufTy).Contents (Elt F) → (⟨S50000, .f32⟩ : BufTy).Contents (Elt F)),
    unary main_v3 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_4 (constant S_ .f32 0x3F800000#32),
    unary main_cst_4 main_v23 (broadcastInDim S50000 ![] bcast_S_S50000 : (⟨S_, .f32⟩ : BufTy).Contents (Elt F) → (⟨S50000, .f32⟩ : BufTy).Contents (Elt F)),
    binary main_v22 main_v23 main_v24 (maximumf : (⟨S50000, .f32⟩ : BufTy).Contents (Elt F) → (⟨S50000, .f32⟩ : BufTy).Contents (Elt F) → (⟨S50000, .f32⟩ : BufTy).Contents (Elt F)),
    unary main_v24 main_v25 (broadcastInDim S50000x1 ![0] bcast_S50000_S50000x1_0 : (⟨S50000, .f32⟩ : BufTy).Contents (Elt F) → (⟨S50000x1, .f32⟩ : BufTy).Contents (Elt F)),
    unary main_v25 main_v26 (broadcastInDim S50000x128 ![0, 1] bcast_S50000x1_S50000x128_0_1 : (⟨S50000x1, .f32⟩ : BufTy).Contents (Elt F) → (⟨S50000x128, .f32⟩ : BufTy).Contents (Elt F)),
    binary main_v18 main_v26 main_v27 (Host.divf : (⟨S50000x128, .f32⟩ : BufTy).Contents (Elt F) → (⟨S50000x128, .f32⟩ : BufTy).Contents (Elt F) → (⟨S50000x128, .f32⟩ : BufTy).Contents (Elt F)),
    binary main_v27 main_arg5 main_v28 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v29 (broadcastInDim S1x128 ![1] bcast_S128_S1x128_1 : (⟨S128, .f32⟩ : BufTy).Contents (Elt F) → (⟨S1x128, .f32⟩ : BufTy).Contents (Elt F)),
    unary main_v29 main_v30 (broadcastInDim S50000x128 ![0, 1] bcast_S1x128_S50000x128_0_1 : (⟨S1x128, .f32⟩ : BufTy).Contents (Elt F) → (⟨S50000x128, .f32⟩ : BufTy).Contents (Elt F)),
    binary main_v28 main_v30 main_v31 (addf : (⟨S50000x128, .f32⟩ : BufTy).Contents (Elt F) → (⟨S50000x128, .f32⟩ : BufTy).Contents (Elt F) → (⟨S50000x128, .f32⟩ : BufTy).Contents (Elt F)),
    binary main_v8 main_arg7 main_v32 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v31 main_v32 main_v33 (addf : (⟨S50000x128, .f32⟩ : BufTy).Contents (Elt F) → (⟨S50000x128, .f32⟩ : BufTy).Contents (Elt F) → (⟨S50000x128, .f32⟩ : BufTy).Contents (Elt F)),
    nullary main_c_5 (constantI S_ 32 0#32),
    unary main_c_5 main_v34 (broadcastInDim S1600000 ![] bcast_S_S1600000 : (⟨S_, .i32⟩ : BufTy).Contents (Elt F) → (⟨S1600000, .i32⟩ : BufTy).Contents (Elt F)),
    binary main_v1 main_v34 main_v35 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v36 (broadcastInDim S1600000 ![] bcast_S_S1600000 : (⟨S_, .i32⟩ : BufTy).Contents (Elt F) → (⟨S1600000, .i32⟩ : BufTy).Contents (Elt F)),
    binary main_v1 main_v36 main_v37 (addi : (⟨S1600000, .i32⟩ : BufTy).Contents (Elt F) → (⟨S1600000, .i32⟩ : BufTy).Contents (Elt F) → (⟨S1600000, .i32⟩ : BufTy).Contents (Elt F)),
    ternary main_v35 main_v37 main_v1 main_v38 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v38 main_v39 (broadcastInDim S1600000x1 ![0] bcast_S1600000_S1600000x1_0 : (⟨S1600000, .i32⟩ : BufTy).Contents (Elt F) → (⟨S1600000x1, .i32⟩ : BufTy).Contents (Elt F)),
    binary main_v33 main_v39 main_v40 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v41 (broadcastInDim S50000x128 ![] bcast_S_S50000x128 : (⟨S_, .f32⟩ : BufTy).Contents (Elt F) → (⟨S50000x128, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_8 (constant S_ .f32 0x3F800000#32),
    unary main_cst_8 main_v44 (broadcastInDim S1600000 ![] bcast_S_S1600000 : (⟨S_, .f32⟩ : BufTy).Contents (Elt F) → (⟨S1600000, .f32⟩ : BufTy).Contents (Elt F)),
    nullary main_cst_9 (constant S_ .f32 0x00000000#32),
    unary main_cst_9 main_v45 (broadcastInDim S50000 ![] bcast_S_S50000 : (⟨S_, .f32⟩ : BufTy).Contents (Elt F) → (⟨S50000, .f32⟩ : BufTy).Contents (Elt F)),
    unary main_v3 main_v46 (broadcastInDim S1600000x1 ![0] bcast_S1600000_S1600000x1_0 : (⟨S1600000, .i32⟩ : BufTy).Contents (Elt F) → (⟨S1600000x1, .i32⟩ : BufTy).Contents (Elt F)),
    ternary main_v45 main_v46 main_v44 main_v47 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)) ]

/-- The last sixteen operations: the second mean, the second layer and the output projection. -/
abbrev ops1 : List (HloOp τ sig (Elt F)) :=
  [ nullary main_cst_10 (constant S_ .f32 0x3F800000#32),
    unary main_cst_10 main_v48 (broadcastInDim S50000 ![] bcast_S_S50000 : (⟨S_, .f32⟩ : BufTy).Contents (Elt F) → (⟨S50000, .f32⟩ : BufTy).Contents (Elt F)),
    binary main_v47 main_v48 main_v49 (maximumf : (⟨S50000, .f32⟩ : BufTy).Contents (Elt F) → (⟨S50000, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    unary main_v50 main_v51 (broadcastInDim S50000x128 ![0, 1] bcast_S50000x1_S50000x128_0_1 : (⟨S50000x1, .f32⟩ : BufTy).Contents (Elt F) → (⟨S50000x128, .f32⟩ : BufTy).Contents (Elt F)),
    binary main_v43 main_v51 main_v52 (Host.divf : (⟨S50000x128, .f32⟩ : BufTy).Contents (Elt F) → (⟨S50000x128, .f32⟩ : BufTy).Contents (Elt F) → (⟨S50000x128, .f32⟩ : BufTy).Contents (Elt F)),
    binary main_v52 main_arg8 main_v53 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg9 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    binary main_v33 main_arg10 main_v57 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v56 main_v57 main_v58 (addf : (⟨S50000x128, .f32⟩ : BufTy).Contents (Elt F) → (⟨S50000x128, .f32⟩ : BufTy).Contents (Elt F) → (⟨S50000x128, .f32⟩ : BufTy).Contents (Elt F)),
    binary main_v58 main_arg11 main_v59 ((fun l r => Host.dotGeneral dot_S50000x128_S128x3_S50000x3_1_0_0_1_n_n none l r) : (⟨S50000x128, .f32⟩ : BufTy).Contents (Elt F) → (⟨S128x3, .f32⟩ : BufTy).Contents (Elt F) → (⟨S50000x3, .f32⟩ : BufTy).Contents (Elt F)),
    unary main_arg12 main_v60 (broadcastInDim S1x3 ![1] bcast_S3_S1x3_1 : (⟨S3, .f32⟩ : BufTy).Contents (Elt F) → (⟨S1x3, .f32⟩ : BufTy).Contents (Elt F)),
    unary main_v60 main_v61 (broadcastInDim S50000x3 ![0, 1] bcast_S1x3_S50000x3_0_1 : (⟨S1x3, .f32⟩ : BufTy).Contents (Elt F) → (⟨S50000x3, .f32⟩ : BufTy).Contents (Elt F)),
    binary main_v59 main_v61 main_v62 (addf : (⟨S50000x3, .f32⟩ : BufTy).Contents (Elt F) → (⟨S50000x3, .f32⟩ : BufTy).Contents (Elt F) → (⟨S50000x3, .f32⟩ : BufTy).Contents (Elt F)) ]

/-- The program's operations, in order. -/
abbrev ops : List (HloOp τ sig (Elt F)) := ops0 ++ ops1

end Cert.ReferenceIdeal.RefValue

end
-- ==== Proof.RefRun.lean ====
/-
  The reference program is the straight line of its operations, and its run: every weakly fair execution
  terminates with each buffer at the fold of the operations' results over the launch contents.
-/
import proofs.«129307_j3298534884298_2_alg».proof.Proof.RefOps
import Idealize.ShloMosaic.Lib.Pipeline.Regions

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first part is its straight line: the two called bodies opened at their calls and the sequencing
    reassociated, both sides are one chain of steps. -/
theorem main_part0_eq (c : Dev nD) : main_part0 (F := F) c = seq ops0 := by
  chain_rfl

/-- The second part is its straight line. -/
theorem main_part1_eq (c : Dev nD) : main_part1 (F := F) c = seq ops1 := by
  chain_rfl

/-- The program is the two parts in order, hence the one line. -/
theorem main_eq (c : Dev nD) : main (F := F) c = seq ops := by
  show (main_part0 (F := F) c >>= fun _ => main_part1 (F := F) c) = seq (ops0 ++ ops1)
  rw [seq_append, main_part0_eq, main_part1_eq]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub ..⟩

/-- From any memory with zero counters every weakly fair execution terminates, each buffer at the fold of the
    operations over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerm.lean ====
/-
  The reference's value as a composition of stages, each the program's own operations applied to variables:
  the two rows of the edge list, the input projection through the rectifier, the mean aggregation, the layer
  combine and the output projection.
-/
import proofs.«129307_j3298534884298_2_alg».proof.Proof.Gen.ReferenceIdeal

noncomputable section

namespace Cert.ReferenceIdeal.RefValue

open Cert.ReferenceIdeal Cert.ReferenceIdeal.Gen Idealize.ShloMosaic

variable {F : FTy → Type} [FloatOps F]

/-- The sources of the edges: row 0 of the edge list as a vector. -/
def srcT (ei : IVec S2x1600000 32) : IVec S1600000 32 :=
  shapeCast S1600000 (extractStridedSlice S1x1600000 ![0, 0] ei slices_S2x1600000_S1x1600000_0_0) shapeCasts_S1x1600000_S1600000

/-- The targets of the edges: row 1 of the edge list as a vector. -/
def dstT (ei : IVec S2x1600000 32) : IVec S1600000 32 :=
  shapeCast S1600000 (extractStridedSlice S1x1600000 ![1, 0] ei slices_S2x1600000_S1x1600000_1_0) shapeCasts_S1x1600000_S1600000

/-- The product with a weight matrix plus the bias row laid along every row. -/
def linT (x : FVec F S50000x128 .f32) (W : FVec F S128x128 .f32) (b : FVec F S128 .f32) : FVec F S50000x128 .f32 :=
  addf (Host.dotGeneral dot_S50000x128_S128x128_S50000x128_1_0_0_1_n_n none x W)
    (broadcastInDim S50000x128 ![0, 1] bcast_S1x128_S50000x128_0_1 (broadcastInDim S1x128 ![1] bcast_S128_S1x128_1 b))

/-- The leaky rectifier, entry by entry: `v` where `v ≥ 0`, else the slope times `v`. -/
def leakyT (v : FVec F S50000x128 .f32) : FVec F S50000x128 .f32 :=
  select (cmpf .oge v (broadcastInDim S50000x128 ![] bcast_S_S50000x128 (constant S_ .f32 0x00000000#32))) v
    (mulf (broadcastInDim S50000x128 ![] bcast_S_S50000x128 (id (constant S_ .f32 0x3C23D70A#32))) v)

/-- The input projection. -/
def x0T (f : FVec F S50000x128 .f32) (W : FVec F S128x128 .f32) (b : FVec F S128 .f32) : FVec F S50000x128 .f32 :=
  leakyT (linT f W b)

/-- A node index as array indexing reads it: a negative one counts from the end. -/
def wrapT (ix : IVec S1600000 32) : IVec S1600000 32 :=
  select (cmpi .slt ix (broadcastInDim S1600000 ![] bcast_S_S1600000 (constantI S_ 32 0#32)))
    (addi ix (broadcastInDim S1600000 ![] bcast_S_S1600000 (constantI S_ 32 50000#32))) ix

/-- The mean over the arriving edges of the source rows: the rows gathered at the sources, accumulated at the
    targets, and divided by the larger of the number of arriving edges and one. -/
def aggT (x : FVec F S50000x128 .f32) (src dst : IVec S1600000 32) : FVec F S50000x128 .f32 :=
  Host.divf
    (Host.scatterAdd scatter_S50000x128_S1600000x1_S1600000x128_1_0_0_1
      (broadcastInDim S50000x128 ![] bcast_S_S50000x128 (constant S_ .f32 0x00000000#32))
      (broadcastInDim S1600000x1 ![0] bcast_S1600000_S1600000x1_0 dst)
      (Host.gather gather_S50000x128_S1600000x1_S1600000x128_1_0_n_n_0_1_1128 x
        (broadcastInDim S1600000x1 ![0] bcast_S1600000_S1600000x1_0 (wrapT src))))
    (broadcastInDim S50000x128 ![0, 1] bcast_S50000x1_S50000x128_0_1
      (broadcastInDim S50000x1 ![0] bcast_S50000_S50000x1_0
        (maximumf
          (Host.scatterAdd scatter_S50000_S1600000x1_S1600000_n_0_0_1
            (broadcastInDim S50000 ![] bcast_S_S50000 (constant S_ .f32 0x00000000#32))
            (broadcastInDim S1600000x1 ![0] bcast_S1600000_S1600000x1_0 dst)
            (broadcastInDim S1600000 ![] bcast_S_S1600000 (constant S_ .f32 0x3F800000#32)))
          (broadcastInDim S50000 ![] bcast_S_S50000 (constant S_ .f32 0x3F800000#32)))))

/-- The layer combine: the aggregated rows through one weight matrix plus a bias, plus the own rows through another. -/
def sageT (a x : FVec F S50000x128 .f32) (Wl : FVec F S128x128 .f32) (bl : FVec F S128 .f32) (Wr : FVec F S128x128 .f32) :
    FVec F S50000x128 .f32 :=
  addf (linT a Wl bl) (Host.dotGeneral dot_S50000x128_S128x128_S50000x128_1_0_0_1_n_n none x Wr)

/-- The output projection. -/
def outT (y : FVec F S50000x128 .f32) (Wo : FVec F S128x3 .f32) (bo : FVec F S3 .f32) : FVec F S50000x3 .f32 :=
  addf (Host.dotGeneral dot_S50000x128_S128x3_S50000x3_1_0_0_1_n_n none y Wo)
    (broadcastInDim S50000x3 ![0, 1] bcast_S1x3_S50000x3_0_1 (broadcastInDim S1x3 ![1] bcast_S3_S1x3_1 bo))

/-- The first layer's rows. -/
def h1T (f : FVec F S50000x128 .f32) (ei : IVec S2x1600000 32) (Win : FVec F S128x128 .f32) (bin : FVec F S128 .f32)
    (W1l : FVec F S128x128 .f32) (b1l : FVec F S128 .f32) (W1r : FVec F S128x128 .f32) : FVec F S50000x128 .f32 :=
  sageT (aggT (x0T f Win bin) (srcT ei) (dstT ei)) (x0T f Win bin) W1l b1l W1r

/-- The whole network. -/
def refT (f : FVec F S50000x128 .f32) (ei : IVec S2x1600000 32) (Win : FVec F S128x128 .f32) (bin : FVec F S128 .f32)
    (W1l : FVec F S128x128 .f32) (b1l : FVec F S128 .f32) (W1r W2l : FVec F S128x128 .f32) (b2l : FVec F S128 .f32)
    (W2r : FVec F S128x128 .f32) (Wout : FVec F S128x3 .f32) (bout : FVec F S3 .f32) : FVec F S50000x3 .f32 :=
  outT (sageT (aggT (h1T f ei Win bin W1l b1l W1r) (srcT ei) (dstT ei)) (h1T f ei Win bin W1l b1l W1r) W2l b2l W2r) Wout bout

end Cert.ReferenceIdeal.RefValue

end
-- ==== Proof.RefAfter.lean ====
/-
  What the straight line leaves in the result buffer and in the argument buffers: the fold of the operations
  read at the result is the composition of the stages applied to the arguments' contents, and no operation
  writes an argument.
-/
import proofs.«129307_j3298534884298_2_alg».proof.Proof.RefOps
import proofs.«129307_j3298534884298_2_alg».proof.Proof.RefTerm

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The result buffer after the line: the network's stages composed, at the arguments' contents. -/
theorem out_eq (V : Valuation τ sig (Elt F)) :
    after ops V (main_v62 : DevRef τ sig)
      = refT (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  unfold refT h1T outT sageT aggT x0T leakyT linT wrapT srcT dstT
  simp only [ops, ops0, ops1, List.cons_append, List.nil_append]
  after_results_simp
  rfl

end Cert.ReferenceIdeal.RefValue

end
-- ==== Proof.RefArgs.lean ====
/-
  No operation of the straight line writes an argument buffer: every operation writes one buffer, each of them
  a value of the program and none an argument, so the arguments end as they were.
-/
import proofs.«129307_j3298534884298_2_alg».proof.Proof.RefOps

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The buffers the operations write, in order. -/
abbrev written : List (Ref sig .tc) :=
  [main_v0, main_v1, main_v2, main_v3, main_v4, main_v5, main_v6, main_v7, main_cst, main_call0_cst, main_call0_v0, main_call0_v1, main_call0_v2, main_call0_v3, main_call0_v4, main_v8, main_c, main_v9, main_v10, main_c_0, main_v11, main_v12, main_v13, main_v14, main_v15, main_cst_1, main_v16, main_v17, main_v18, main_cst_2, main_v19, main_cst_3, main_v20, main_v21, main_v22, main_cst_4, main_v23, main_v24, main_v25, main_v26, main_v27, main_v28, main_v29, main_v30, main_v31, main_v32, main_v33, main_c_5, main_v34, main_v35, main_c_6, main_v36, main_v37, main_v38, main_v39, main_v40, main_cst_7, main_v41, main_v42, main_v43, main_cst_8, main_v44, main_cst_9, main_v45, main_v46, main_v47, main_cst_10, main_v48, main_v49, main_v50, main_v51, main_v52, main_v53, main_v54, main_v55, main_v56, main_v57, main_v58, main_v59, main_v60, main_v61, main_v62]

/-- A buffer of the list, as a device buffer, is among the list's device buffers. -/
theorem writes_sub_of_mem {y : Ref sig .tc} (h : y ∈ written) :
    ({Proc.devRef (τ := τ) .tc y} : Finset (DevRef τ sig)) ⊆ (written.map (Proc.devRef (τ := τ) .tc)).toFinset :=
  Finset.singleton_subset_iff.mpr (List.mem_toFinset.mpr (List.mem_map.mpr ⟨y, h, rfl⟩))

/-- Every operation writes only a buffer of the list. -/
theorem writes_sub : (ops : List (HloOp τ sig (Elt F))).Forall fun op =>
    op.writes ⊆ (written.map (Proc.devRef (τ := τ) .tc)).toFinset :=
  ⟨writes_sub_of_mem (y := main_v0) (by decide),
    writes_sub_of_mem (y := main_v1) (by decide),
    writes_sub_of_mem (y := main_v2) (by decide),
    writes_sub_of_mem (y := main_v3) (by decide),
    writes_sub_of_mem (y := main_v4) (by decide),
    writes_sub_of_mem (y := main_v5) (by decide),
    writes_sub_of_mem (y := main_v6) (by decide),
    writes_sub_of_mem (y := main_v7) (by decide),
    writes_sub_of_mem (y := main_cst) (by decide),
    writes_sub_of_mem (y := main_call0_cst) (by decide),
    writes_sub_of_mem (y := main_call0_v0) (by decide),
    writes_sub_of_mem (y := main_call0_v1) (by decide),
    writes_sub_of_mem (y := main_call0_v2) (by decide),
    writes_sub_of_mem (y := main_call0_v3) (by decide),
    writes_sub_of_mem (y := main_call0_v4) (by decide),
    writes_sub_of_mem (y := main_v8) (by decide),
    writes_sub_of_mem (y := main_c) (by decide),
    writes_sub_of_mem (y := main_v9) (by decide),
    writes_sub_of_mem (y := main_v10) (by decide),
    writes_sub_of_mem (y := main_c_0) (by decide),
    writes_sub_of_mem (y := main_v11) (by decide),
    writes_sub_of_mem (y := main_v12) (by decide),
    writes_sub_of_mem (y := main_v13) (by decide),
    writes_sub_of_mem (y := main_v14) (by decide),
    writes_sub_of_mem (y := main_v15) (by decide),
    writes_sub_of_mem (y := main_cst_1) (by decide),
    writes_sub_of_mem (y := main_v16) (by decide),
    writes_sub_of_mem (y := main_v17) (by decide),
    writes_sub_of_mem (y := main_v18) (by decide),
    writes_sub_of_mem (y := main_cst_2) (by decide),
    writes_sub_of_mem (y := main_v19) (by decide),
    writes_sub_of_mem (y := main_cst_3) (by decide),
    writes_sub_of_mem (y := main_v20) (by decide),
    writes_sub_of_mem (y := main_v21) (by decide),
    writes_sub_of_mem (y := main_v22) (by decide),
    writes_sub_of_mem (y := main_cst_4) (by decide),
    writes_sub_of_mem (y := main_v23) (by decide),
    writes_sub_of_mem (y := main_v24) (by decide),
    writes_sub_of_mem (y := main_v25) (by decide),
    writes_sub_of_mem (y := main_v26) (by decide),
    writes_sub_of_mem (y := main_v27) (by decide),
    writes_sub_of_mem (y := main_v28) (by decide),
    writes_sub_of_mem (y := main_v29) (by decide),
    writes_sub_of_mem (y := main_v30) (by decide),
    writes_sub_of_mem (y := main_v31) (by decide),
    writes_sub_of_mem (y := main_v32) (by decide),
    writes_sub_of_mem (y := main_v33) (by decide),
    writes_sub_of_mem (y := main_c_5) (by decide),
    writes_sub_of_mem (y := main_v34) (by decide),
    writes_sub_of_mem (y := main_v35) (by decide),
    writes_sub_of_mem (y := main_c_6) (by decide),
    writes_sub_of_mem (y := main_v36) (by decide),
    writes_sub_of_mem (y := main_v37) (by decide),
    writes_sub_of_mem (y := main_v38) (by decide),
    writes_sub_of_mem (y := main_v39) (by decide),
    writes_sub_of_mem (y := main_v40) (by decide),
    writes_sub_of_mem (y := main_cst_7) (by decide),
    writes_sub_of_mem (y := main_v41) (by decide),
    writes_sub_of_mem (y := main_v42) (by decide),
    writes_sub_of_mem (y := main_v43) (by decide),
    writes_sub_of_mem (y := main_cst_8) (by decide),
    writes_sub_of_mem (y := main_v44) (by decide),
    writes_sub_of_mem (y := main_cst_9) (by decide),
    writes_sub_of_mem (y := main_v45) (by decide),
    writes_sub_of_mem (y := main_v46) (by decide),
    writes_sub_of_mem (y := main_v47) (by decide),
    writes_sub_of_mem (y := main_cst_10) (by decide),
    writes_sub_of_mem (y := main_v48) (by decide),
    writes_sub_of_mem (y := main_v49) (by decide),
    writes_sub_of_mem (y := main_v50) (by decide),
    writes_sub_of_mem (y := main_v51) (by decide),
    writes_sub_of_mem (y := main_v52) (by decide),
    writes_sub_of_mem (y := main_v53) (by decide),
    writes_sub_of_mem (y := main_v54) (by decide),
    writes_sub_of_mem (y := main_v55) (by decide),
    writes_sub_of_mem (y := main_v56) (by decide),
    writes_sub_of_mem (y := main_v57) (by decide),
    writes_sub_of_mem (y := main_v58) (by decide),
    writes_sub_of_mem (y := main_v59) (by decide),
    writes_sub_of_mem (y := main_v60) (by decide),
    writes_sub_of_mem (y := main_v61) (by decide),
    writes_sub_of_mem (y := main_v62) (by decide)⟩

theorem arg0_eq (V : Valuation τ sig (Elt F)) :
    after ops V (main_arg0 : DevRef τ sig) = V (main_arg0 : DevRef τ sig) :=
  after_of_writes_sub ops V writes_sub (by decide)
theorem arg1_eq (V : Valuation τ sig (Elt F)) :
    after ops V (main_arg1 : DevRef τ sig) = V (main_arg1 : DevRef τ sig) :=
  after_of_writes_sub ops V writes_sub (by decide)
theorem arg2_eq (V : Valuation τ sig (Elt F)) :
    after ops V (main_arg2 : DevRef τ sig) = V (main_arg2 : DevRef τ sig) :=
  after_of_writes_sub ops V writes_sub (by decide)
theorem arg3_eq (V : Valuation τ sig (Elt F)) :
    after ops V (main_arg3 : DevRef τ sig) = V (main_arg3 : DevRef τ sig) :=
  after_of_writes_sub ops V writes_sub (by decide)
theorem arg4_eq (V : Valuation τ sig (Elt F)) :
    after ops V (main_arg4 : DevRef τ sig) = V (main_arg4 : DevRef τ sig) :=
  after_of_writes_sub ops V writes_sub (by decide)
theorem arg5_eq (V : Valuation τ sig (Elt F)) :
    after ops V (main_arg5 : DevRef τ sig) = V (main_arg5 : DevRef τ sig) :=
  after_of_writes_sub ops V writes_sub (by decide)
theorem arg6_eq (V : Valuation τ sig (Elt F)) :
    after ops V (main_arg6 : DevRef τ sig) = V (main_arg6 : DevRef τ sig) :=
  after_of_writes_sub ops V writes_sub (by decide)
theorem arg7_eq (V : Valuation τ sig (Elt F)) :
    after ops V (main_arg7 : DevRef τ sig) = V (main_arg7 : DevRef τ sig) :=
  after_of_writes_sub ops V writes_sub (by decide)
theorem arg8_eq (V : Valuation τ sig (Elt F)) :
    after ops V (main_arg8 : DevRef τ sig) = V (main_arg8 : DevRef τ sig) :=
  after_of_writes_sub ops V writes_sub (by decide)
theorem arg9_eq (V : Valuation τ sig (Elt F)) :
    after ops V (main_arg9 : DevRef τ sig) = V (main_arg9 : DevRef τ sig) :=
  after_of_writes_sub ops V writes_sub (by decide)
theorem arg10_eq (V : Valuation τ sig (Elt F)) :
    after ops V (main_arg10 : DevRef τ sig) = V (main_arg10 : DevRef τ sig) :=
  after_of_writes_sub ops V writes_sub (by decide)
theorem arg11_eq (V : Valuation τ sig (Elt F)) :
    after ops V (main_arg11 : DevRef τ sig) = V (main_arg11 : DevRef τ sig) :=
  after_of_writes_sub ops V writes_sub (by decide)
theorem arg12_eq (V : Valuation τ sig (Elt F)) :
    after ops V (main_arg12 : DevRef τ sig) = V (main_arg12 : DevRef τ sig) :=
  after_of_writes_sub ops V writes_sub (by decide)

end Cert.ReferenceIdeal.RefValue

end
-- ==== Proof.RefStages.lean ====
/-
  Each stage of the reference's value is the corresponding stage of the specification: the dense stages entry by
  entry (a product with a weight matrix read at an entry is the 128-term inner product, the bias row laid along
  the rows reads the bias entry, the rectifier is the specification's on every entry), the aggregation as it
  stands (the same gather, accumulating scatters, maximum and division over the same dimension records).
-/
import proofs.«129307_j3298534884298_2_alg».proof.Proof.RefTerm
import proofs.«129307_j3298534884298_2_alg».proof.Proof.Spec
import Idealize.ShloMosaic.Lib.KernelVsHost
import Idealize.ShloMosaic.Lib.IdealHost

noncomputable section

open scoped BigOperators

namespace Cert.ReferenceIdeal.RefValue

open Cert.ReferenceIdeal Cert.ReferenceIdeal.Gen Idealize.ShloMosaic Idealize.ShloMosaic.ValueIdx

/-! ## The products at an entry -/

/-- A node array times a square weight matrix, at entry `(n, h)`: the inner product of row `n` and column `h`. -/
theorem dot128_apply (A : FVec Ideal S50000x128 .f32) (B : FVec Ideal S128x128 .f32) (n : Fin 50000) (h : Fin 128) :
    Host.dotGeneral dot_S50000x128_S128x128_S50000x128_1_0_0_1_n_n none A B (ix2 n h)
      = ∑ k : Fin 128, A (ix2 n k) * B (ix2 k h) := by
  show FloatOps.dotGeneral _ none _ A B (ix2 n h) = _
  rw [Ideal.dotGeneral_apply,
    ← Equiv.sum_comp (contrEquiv1 dot_S50000x128_S128x128_S50000x128_1_0_0_1_n_n 128 rfl rfl).symm]
  refine Finset.sum_congr rfl fun c _ => ?_
  have c2 := contrEquiv1_symm_val dot_S50000x128_S128x128_S50000x128_1_0_0_1_n_n 128 rfl rfl c
  have l2 : dot_S50000x128_S128x128_S50000x128_1_0_0_1_n_n.lhsIdx (ix2 n h)
      ((contrEquiv1 dot_S50000x128_S128x128_S50000x128_1_0_0_1_n_n 128 rfl rfl).symm c) = ix2 n c := by
    funext ax; apply Fin.ext
    match ax with
    | ⟨0, _⟩ => rfl
    | ⟨1, _⟩ =>
      exact (DotDims.lhsIdx_val_of_single dot_S50000x128_S128x128_S50000x128_1_0_0_1_n_n (cl := 1) rfl (ix2 n h) _).trans c2
  have r2 : dot_S50000x128_S128x128_S50000x128_1_0_0_1_n_n.rhsIdx (ix2 n h)
      ((contrEquiv1 dot_S50000x128_S128x128_S50000x128_1_0_0_1_n_n 128 rfl rfl).symm c) = ix2 c h := by
    funext ax; apply Fin.ext
    match ax with
    | ⟨0, _⟩ =>
      exact (DotDims.rhsIdx_val_of_single dot_S50000x128_S128x128_S50000x128_1_0_0_1_n_n (cr := 0) rfl (ix2 n h) _).trans c2
    | ⟨1, _⟩ => rfl
  rw [l2, r2]

/-- A node array times the output weight matrix, at entry `(n, o)`. -/
theorem dot3_apply (A : FVec Ideal S50000x128 .f32) (B : FVec Ideal S128x3 .f32) (n : Fin 50000) (o : Fin 3) :
    Host.dotGeneral dot_S50000x128_S128x3_S50000x3_1_0_0_1_n_n none A B (ix2 n o)
      = ∑ k : Fin 128, A (ix2 n k) * B (ix2 k o) := by
  show FloatOps.dotGeneral _ none _ A B (ix2 n o) = _
  rw [Ideal.dotGeneral_apply,
    ← Equiv.sum_comp (contrEquiv1 dot_S50000x128_S128x3_S50000x3_1_0_0_1_n_n 128 rfl rfl).symm]
  refine Finset.sum_congr rfl fun c _ => ?_
  have c2 := contrEquiv1_symm_val dot_S50000x128_S128x3_S50000x3_1_0_0_1_n_n 128 rfl rfl c
  have l2 : dot_S50000x128_S128x3_S50000x3_1_0_0_1_n_n.lhsIdx (ix2 n o)
      ((contrEquiv1 dot_S50000x128_S128x3_S50000x3_1_0_0_1_n_n 128 rfl rfl).symm c) = ix2 n c := by
    funext ax; apply Fin.ext
    match ax with
    | ⟨0, _⟩ => rfl
    | ⟨1, _⟩ =>
      exact (DotDims.lhsIdx_val_of_single dot_S50000x128_S128x3_S50000x3_1_0_0_1_n_n (cl := 1) rfl (ix2 n o) _).trans c2
  have r2 : dot_S50000x128_S128x3_S50000x3_1_0_0_1_n_n.rhsIdx (ix2 n o)
      ((contrEquiv1 dot_S50000x128_S128x3_S50000x3_1_0_0_1_n_n 128 rfl rfl).symm c) = ix2 c o := by
    funext ax; apply Fin.ext
    match ax with
    | ⟨0, _⟩ =>
      exact (DotDims.rhsIdx_val_of_single dot_S50000x128_S128x3_S50000x3_1_0_0_1_n_n (cr := 0) rfl (ix2 n o) _).trans c2
    | ⟨1, _⟩ => rfl
  rw [l2, r2]

/-! ## The bias rows at an entry -/

/-- A bias row laid along every row of a node array reads the bias entry of the column. -/
theorem bias128_apply (b : S128.Idx → EReal) (n : Fin 50000) (h : Fin 128) :
    broadcastInDim S50000x128 ![0, 1] bcast_S1x128_S50000x128_0_1 (broadcastInDim S1x128 ![1] bcast_S128_S1x128_1 b) (ix2 n h)
      = b (ix1 h) := by
  rw [broadcastInDim_oneRow_apply (m := 50000) (n := 128) bcast_S1x128_S50000x128_0_1 _ n h]
  refine broadcastInDim_apply ![1] bcast_S128_S1x128_1 b (ix2 (0 : Fin 1) h) (ix1 h) ?_
  intro a
  match a with
  | ⟨0, _⟩ => rfl

/-- The output bias laid along every row reads the bias entry of the column. -/
theorem bias3_apply (b : S3.Idx → EReal) (n : Fin 50000) (o : Fin 3) :
    broadcastInDim S50000x3 ![0, 1] bcast_S1x3_S50000x3_0_1 (broadcastInDim S1x3 ![1] bcast_S3_S1x3_1 b) (ix2 n o)
      = b (ix1 o) := by
  rw [broadcastInDim_oneRow_apply (m := 50000) (n := 3) bcast_S1x3_S50000x3_0_1 _ n o]
  refine broadcastInDim_apply ![1] bcast_S3_S1x3_1 b (ix2 (0 : Fin 1) o) (ix1 o) ?_
  intro a
  match a with
  | ⟨0, _⟩ => rfl

/-! ## The dense stages -/

theorem linT_apply (x : FVec Ideal S50000x128 .f32) (W : FVec Ideal S128x128 .f32) (b : FVec Ideal S128 .f32)
    (n : Fin 50000) (h : Fin 128) :
    linT x W b (ix2 n h) = (∑ k : Fin 128, x (ix2 n k) * W (ix2 k h)) + b (ix1 h) := by
  unfold linT
  rw [addf_apply, dot128_apply, bias128_apply]

/-- The rectifier on an array is the specification's on every entry. -/
theorem leakyT_apply (v : FVec Ideal S50000x128 .f32) (i : S50000x128.Idx) : leakyT v i = Cert.Sage.leaky (v i) := by
  unfold leakyT Cert.Sage.leaky
  rw [select_apply, cmpf_apply, mulf_apply, broadcastInDim_scalar_apply, broadcastInDim_scalar_apply]
  rfl

/-- The input projection is the specification's. -/
theorem x0T_eq (f : FVec Ideal S50000x128 .f32) (W : FVec Ideal S128x128 .f32) (b : FVec Ideal S128 .f32) :
    x0T f W b = Cert.Sage.proj f W b := by
  funext i
  obtain ⟨n, h, rfl⟩ : ∃ (n : Fin 50000) (h : Fin 128), i = ix2 n h := ⟨i 0, i 1, eq_ix2 i⟩
  rw [Cert.Sage.proj_ix2]
  unfold x0T Cert.Sage.projAt
  rw [leakyT_apply, linT_apply]

/-- The layer combine is the specification's. -/
theorem sageT_eq (a x : FVec Ideal S50000x128 .f32) (Wl : FVec Ideal S128x128 .f32) (bl : FVec Ideal S128 .f32)
    (Wr : FVec Ideal S128x128 .f32) : sageT a x Wl bl Wr = Cert.Sage.sage a x Wl bl Wr := by
  funext i
  obtain ⟨n, h, rfl⟩ : ∃ (n : Fin 50000) (h : Fin 128), i = ix2 n h := ⟨i 0, i 1, eq_ix2 i⟩
  rw [Cert.Sage.sage_ix2]
  unfold sageT Cert.Sage.sageAt
  rw [addf_apply, linT_apply, dot128_apply]

/-- The output projection is the specification's. -/
theorem outT_eq (y : FVec Ideal S50000x128 .f32) (Wo : FVec Ideal S128x3 .f32) (bo : FVec Ideal S3 .f32) :
    outT y Wo bo = Cert.Sage.outp y Wo bo := by
  funext i
  obtain ⟨n, o, rfl⟩ : ∃ (n : Fin 50000) (o : Fin 3), i = ix2 n o := ⟨i 0, i 1, eq_ix2 i⟩
  rw [Cert.Sage.outp_ix2]
  unfold outT Cert.Sage.outpAt
  rw [addf_apply, dot3_apply, bias3_apply]

/-! ## The edge list and the aggregation, as they stand -/

theorem srcT_eq (ei : IVec S2x1600000 32) : srcT ei = Cert.Sage.srcOf ei := rfl
theorem dstT_eq (ei : IVec S2x1600000 32) : dstT ei = Cert.Sage.dstOf ei := rfl
theorem wrapT_eq (ix : IVec S1600000 32) : wrapT ix = Cert.Sage.wrap ix := rfl

/-- The mean aggregation is the specification's: the same operations over the same dimension records. -/
theorem aggT_eq (x : FVec Ideal S50000x128 .f32) (src dst : IVec S1600000 32) :
    aggT x src dst = Cert.Sage.aggR x src dst := rfl

/-! ## The whole network -/

/-- The reference's value is the specification's network with the aggregation divided node by node. -/
theorem refT_eq (f : FVec Ideal S50000x128 .f32) (ei : IVec S2x1600000 32) (Win : FVec Ideal S128x128 .f32)
    (bin : FVec Ideal S128 .f32) (W1l : FVec Ideal S128x128 .f32) (b1l : FVec Ideal S128 .f32)
    (W1r W2l : FVec Ideal S128x128 .f32) (b2l : FVec Ideal S128 .f32) (W2r : FVec Ideal S128x128 .f32)
    (Wout : FVec Ideal S128x3 .f32) (bout : FVec Ideal S3 .f32) :
    refT f ei Win bin W1l b1l W1r W2l b2l W2r Wout bout
      = Cert.Sage.refOut f ei Win bin W1l b1l W1r W2l b2l W2r Wout bout := by
  unfold refT h1T Cert.Sage.refOut
  rw [x0T_eq, srcT_eq, dstT_eq, aggT_eq, sageT_eq, aggT_eq, sageT_eq, outT_eq]

end Cert.ReferenceIdeal.RefValue

end
-- ==== Proof.RefValue.lean ====
/-
  The reference's run and its value: every weakly fair execution of the reference terminates with the result
  buffer at the specification's network (the aggregation divided node by node) of the arguments' launch contents,
  and with the arguments unchanged.
-/
import proofs.«129307_j3298534884298_2_alg».proof.Proof.RefRun
import proofs.«129307_j3298534884298_2_alg».proof.Proof.RefAfter
import proofs.«129307_j3298534884298_2_alg».proof.Proof.RefArgs
import proofs.«129307_j3298534884298_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The result buffer after the line, from any contents: the specification's network of the arguments' contents. -/
theorem out_refOut (V : Valuation τ sig (Elt Ideal)) :
    after ops V (main_v62 : DevRef τ sig)
      = Cert.Sage.refOut (V (main_arg0 : DevRef τ sig)) (V (main_arg1 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) :=
  (out_eq V).trans (refT_eq _ _ _ _ _ _ _ _ _ _ _ _)

/-- On every device, from any memory with zero counters: every weakly fair execution of the reference terminates
    with the result at the specification's network of the arguments and the arguments unchanged. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩
      (fun r => ∀ c : Dev nD,
        r.2.mem ((c.tc : Thread nD τ).loc main_v62)
            = Cert.Sage.refOut (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)) :=
  (θ_run defs _ _).mono (fun _ h c => ⟨(h c main_v62).trans (out_refOut (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c))⟩)
    (run_after m ρ)

end Cert.ReferenceIdeal.RefValue

end
-- ==== Proof.lean ====
/-
  The certificate of a two-layer mean-aggregating graph network (50000 nodes, 128 features, 1600000 edges): the
  kernel program — three tiled dense stages with the neighbour aggregation between them on the host — against the
  plain reference, at the ideal instance, where a float is an extended real and every operation is exact.

  Both programs compute, row by row, the input projection through the leaky rectifier, two layer combines
  `(a · Wl + bl) + x · Wr` of the aggregated neighbours `a` and the node's own row `x`, and the output projection
  (Proof/Spec.lean). They differ in the aggregation only: the reference sums the source rows of the edges arriving
  at a node and divides by `max (count) 1`; the kernel program multiplies each edge's source row by
  `1 / max (count at the edge's target) 1` and sums afterwards. The divisor is at least 1, so its inverse is a
  nonnegative extended real that is not `⊤`, and such a factor moves across a finite sum although multiplication on
  the extended reals does not distribute in general (Proof/AggLaw.lean). No finiteness of the inputs is used.

  The kernel program's run ends with its result at the network with the edge-by-edge scaling (Proof/KChain.lean, over
  the three tiled stages' whole-array forms, Proof/Region0.lean … Region2.lean), the reference's at the network with
  the node-by-node division (Proof/RefValue.lean); the law joins them. The three programs' frames come with their
  runs, and the idealization rewrote nothing, so `preserves` has nothing to state.
-/
import proofs.«129307_j3298534884298_2_alg».proof.Defs
import proofs.«129307_j3298534884298_2_alg».proof.Proof.Gen.Kernel
import proofs.«129307_j3298534884298_2_alg».proof.Proof.Gen.Kernel.Skeleton
import proofs.«129307_j3298534884298_2_alg».proof.Proof.Gen.Kernel.Launch
import proofs.«129307_j3298534884298_2_alg».proof.Proof.Gen.Kernel.Points
import proofs.«129307_j3298534884298_2_alg».proof.Proof.Gen.Kernel.Frame
import proofs.«129307_j3298534884298_2_alg».proof.Proof.Gen.KernelIdeal
import proofs.«129307_j3298534884298_2_alg».proof.Proof.Gen.KernelIdeal.Skeleton
import proofs.«129307_j3298534884298_2_alg».proof.Proof.Gen.KernelIdeal.Launch
import proofs.«129307_j3298534884298_2_alg».proof.Proof.Gen.KernelIdeal.Points
import proofs.«129307_j3298534884298_2_alg».proof.Proof.Gen.KernelIdeal.Frame
import proofs.«129307_j3298534884298_2_alg».proof.Proof.Gen.ReferenceIdeal
import proofs.«129307_j3298534884298_2_alg».proof.Proof.Gen.Pre_finite_inputs
import proofs.«129307_j3298534884298_2_alg».proof.Proof.AggLaw
import proofs.«129307_j3298534884298_2_alg».proof.Proof.Region0
import proofs.«129307_j3298534884298_2_alg».proof.Proof.Region1
import proofs.«129307_j3298534884298_2_alg».proof.Proof.Region2
import proofs.«129307_j3298534884298_2_alg».proof.Proof.KChain
import proofs.«129307_j3298534884298_2_alg».proof.Proof.RefValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories agreeing on the arguments both runs end, the kernel program's result at the network with the
    edge-by-edge scaling and the reference's at the network with the node-by-node division, of the same arguments:
    one function. -/
theorem algebraic : Cert.algebraic_KernelIdeal_ReferenceIdeal := by
  intro m ρ m' ρ' _ hagree
  refine ⟨fun c => Cert.Sage.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)),
    Cert.KernelIdeal.KValue.run Cert.KernelIdeal.RegionValue.final0 Cert.KernelIdeal.RegionValue.final1
      Cert.KernelIdeal.RegionValue.final2 m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]
  exact (Cert.Sage.kerOut_eq_refOut _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
